-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  main_v88

def fn_part4 {F : FTy → Type} [FloatOps F] (main_arg14 : FVec F S1024x1024 .f32) (main_arg15 : FVec F S1024x1024 .f32) (main_arg16 : FVec F S1024 .f32) (main_arg17 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) (main_arg17 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) (main_arg17 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) (main_arg17 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_arg15 : FVec F S1024x1024 .f32) (main_arg16 : FVec F S1024 .f32) (main_arg17 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x5120 : Shape := ⟨2, ![1024, 5120]⟩
abbrev S5120 : Shape := ⟨1, ![5120]⟩
abbrev S1x5120 : Shape := ⟨2, ![1, 5120]⟩
abbrev S128x1024 : Shape := ⟨2, ![128, 1024]⟩
abbrev S128x5120 : Shape := ⟨2, ![128, 5120]⟩
abbrev S128 : Shape := ⟨1, ![128]⟩
abbrev S128x1 : Shape := ⟨2, ![128, 1]⟩

abbrev nBuf : Space → Nat
  | .hbm => 44
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024x5120, .bf16⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S1024x1024, .f32⟩
  | .hbm, ⟨36, _⟩ => ⟨S1024x1024, .bf16⟩
  | .hbm, ⟨37, _⟩ => ⟨S1024x1024, .f32⟩
  | .hbm, ⟨38, _⟩ => ⟨S1024x1024, .bf16⟩
  | .hbm, ⟨39, _⟩ => ⟨S1024x5120, .bf16⟩
  | .hbm, ⟨40, _⟩ => ⟨S5120, .f32⟩
  | .hbm, ⟨41, _⟩ => ⟨S1x5120, .f32⟩
  | .hbm, ⟨42, _⟩ => ⟨S16384x1024, .f32⟩
  | .hbm, ⟨43, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x5120, .bf16⟩
  | .local _ .vmem, ⟨7, _⟩ => ⟨S1024x5120, .bf16⟩
  | .local _ .vmem, ⟨8, _⟩ => ⟨S1x5120, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  bitsLt_bf16_f32 : FTy.bits .bf16 < FTy.bits .f32
  concatenates_S1024x1024_S1024x1024_S1024x1024_S1024x1024_S1024x1024_S1024x5120_d1 : Shape.Concatenates [S1024x1024, S1024x1024, S1024x1024, S1024x1024, S1024x1024] S1024x5120 1
  concatenates_S1024_S1024_S1024_S1024_S1024_S5120_d0 : Shape.Concatenates [S1024, S1024, S1024, S1024, S1024] S5120 0
  shapeCasts_S5120_S1x5120 : S5120.ShapeCasts S1x5120
  inb_S128x1024_S128x1024_0_0 : ∀ a, (![0, 0] : Fin 2 → Nat) a + S128x1024.size a ≤ S128x1024.size a
  h_S128x1024 : 0 < S128x1024.numel
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S128x5120 : S1x5120.Broadcasts S128x5120
  slices_S128x5120_o0_0_S128x1024 : S128x5120.Slices ![0, 0] S128x1024
  slices_S128x5120_o0_1024_S128x1024 : S128x5120.Slices ![0, 1024] S128x1024
  slices_S128x5120_o0_2048_S128x1024 : S128x5120.Slices ![0, 2048] S128x1024
  slices_S128x5120_o0_3072_S128x1024 : S128x5120.Slices ![0, 3072] S128x1024
  slices_S128x5120_o0_4096_S128x1024 : S128x5120.Slices ![0, 4096] S128x1024
  reduces_S128x1024_S128 : S128x1024.Reduces [1] S128
  shapeCasts_S128_S128x1 : S128.ShapeCasts S128x1
  broadcasts_S128x1_S128x1024 : S128x1.Broadcasts S128x1024
  dot_S128x1024_S1024x5120_S128x5120_1_0_0_1_n_n_wf : DotDims.WF S128x1024 S1024x5120 S128x5120 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x5120.size a ≤ S1024x5120.size a
  hwx0_3 : ∀ i : grid0.Coords, EltTy.bits .bf16 = 32 ∨ (Rect.block (s := S1024x5120) S1024x5120.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x5120.size a ≤ S1024x5120.size a
  hwx0_4 : ∀ i : grid0.Coords, EltTy.bits .bf16 = 32 ∨ (Rect.block (s := S1024x5120) S1024x5120.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x5120.size a ≤ S1x5120.size a
  hwx0_5 : ∀ i : grid0.Coords, EltTy.bits .f32 = 32 ∨ (Rect.block (s := S1x5120) S1x5120.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S16384x1024.size a
  hwx0_6 : ∀ i : grid0.Coords, EltTy.bits .f32 = 32 ∨ (Rect.block (s := S16384x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S16384x1024.size a
  hwx0_7 : ∀ i : grid0.Coords, EltTy.bits .f32 = 32 ∨ (Rect.block (s := S16384x1024) S128x1024.size (cc0_transform_7 i) (hinb0_7 i)).WholeWords (EltTy.packing .f32)

variable [Facts₀]

def dot_S128x1024_S1024x5120_S128x5120_1_0_0_1_n_n : DotDims S128x1024 S1024x5120 S128x5120 where
  lhsContracting := [1]
  rhsContracting := [0]
  lhsNonContracting := [0]
  rhsNonContracting := [1]
  lhsBatch := []
  rhsBatch := []
  wf := dot_S128x1024_S1024x5120_S128x5120_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x5120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x5120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x5120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S1024x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S1024x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S1024x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S1024x1024, .f32⟩
  | .hbm, ⟨67, _⟩ => ⟨S16384x1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S1024x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S1024x1024, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | .hbm, ⟨80, _⟩ => ⟨S1024x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384, .f32⟩
  | .hbm, ⟨97, _⟩ => ⟨S16384x1, .f32⟩
  | .hbm, ⟨98, _⟩ => ⟨S16384x1024, .f32⟩
  | .hbm, ⟨99, _⟩ => ⟨S_, .f32⟩
  | .hbm, ⟨100, _⟩ => ⟨S16384, .f32⟩
  | .hbm, ⟨101, _⟩ => ⟨S16384x1, .f32⟩
  | .hbm, ⟨102, _⟩ => ⟨S16384x1, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S16384x1024, .f32⟩
  | .hbm, ⟨108, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_5 : Ref sig .tc := ⟨.hbm, 85, rfl⟩
abbrev main_v61 : Ref sig .tc := ⟨.hbm, 86, rfl⟩
abbrev main_v62 : Ref sig .tc := ⟨.hbm, 87, rfl⟩
abbrev main_cst_6 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_7 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.BitsLaunch.lean ====
import proofs.«105872_j31061203485011_2_alg».proof.Proof.Gen.Kernel.Launch
import proofs.«105872_j31061203485011_2_alg».proof.Proof.Gen.Kernel.Skeleton
import proofs.«105872_j31061203485011_2_alg».proof.Proof.Gen.Kernel.Points
import Idealize.ShloMosaic.Lib.Pipeline.FrameBody
import Idealize.ShloMosaic.Lib.Ring
import Idealize.ShloMosaic.Lib.Tactic

/-!
# The run of the five-gate cell's launch, with every array after it named

The entry point first re-lays the weights on the host — each of the ten weight matrices transposed, the five
`W` transposes set side by side into one `1024 × 5120` matrix, the five `U` transposes into another, the five
bias vectors joined into one row of `5120` — and then launches ONE grid of 128 points over the batch. Point `t`
reads rows `128 t … 128 t + 127` of the three batch arrays (data, previous hidden state, previous cell state) and
the whole of the two fused weight matrices and of the bias row, and writes rows `128 t … 128 t + 127` of the two
results. The body keeps nothing between points: it loads its six input blocks whole, computes, and stores each of
its two output blocks whole, once.

So the run is described by: the arrays as the launch finds them (`V`: the memory after the host lines), the block of
each window at a point (`iblk`), and what the body leaves in each output block as a function of the six input blocks
(`outHidden`, `outCell`: the body's two stores over the body's arithmetic). From these the library's launch theorem
gives, for every weakly fair execution, termination without a fault, each result array equal to the entry contents
overwritten block by block with what the points left, and every other array as the launch found it — in particular
the eighteen arguments, which no host line and no point writes.

Everything is stated for any reading `F` of the floats: nothing here looks inside the arithmetic.
-/

-- membership of an index in a rectangle of these extents is checked structurally, one step per coordinate
set_option maxRecDepth 16384

noncomputable section

namespace Cert.Kernel.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point up to the launch -/

/-- Core `c`'s arrays when the grid is launched: the initial memory after the 24 host lines (ten transposes, ten
    changes of format, three joins, one reshape). -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- The entry point is the host lines followed by the launch, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 9: the launch finds it as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 10: the launch finds it as it was. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 11: the launch finds it as it was. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 12: the launch finds it as it was. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 13: the launch finds it as it was. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 14: the launch finds it as it was. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 15: the launch finds it as it was. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 16: the launch finds it as it was. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 17: the launch finds it as it was. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the launch finds it: rows `128 t …` of a batch array for
    windows 0, 1, 2; the whole fused matrix or bias row for windows 3, 4, 5. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point — whether the point fetched it (the
    batch windows, every point) or not (the weights and the bias, fetched once: their block index never moves) —
    for any description of the run whose arrays are `V`'s and whose body leaves the input blocks in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the launch theorem's conclusion to the arrays one by one -/

/-- For any description of the run whose arrays are the entry contents: a run ending with every window's array at
    what the description computes, and every other array as the launch found it, ends with the two results at the
    description's final arrays and the eighteen arguments as they started (a batch array is a window's array that
    is only read; the others are no window's array, and no host line writes any of them). -/
theorem named_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v24_0) = (dats 0 c).arrAt 6 cfg0.N
      ∧ r.2.mem ((c.tc : Thread nD τ).loc main_v24_1) = (dats 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c).1 6, (h c).1 7,
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## The body's accesses -/

/-- The whole of a batch tile, of a fused weight matrix, of the bias row: the only rectangles the body touches. -/
abbrev rTile : Rect S128x1024 := Rect.unit (s := S128x1024) ![0, 0] S128x1024.size inb_S128x1024_S128x1024_0_0
abbrev rWeights : Rect S1024x5120 := Rect.unit (s := S1024x5120) ![0, 0] S1024x5120.size inb_S1024x5120_S1024x5120_0_0
abbrev rBias : Rect S1x5120 := Rect.unit (s := S1x5120) ![0, 0] S1x5120.size inb_S1x5120_S1x5120_0_0

/-! ## What the body leaves in each output block -/

/-- The new hidden state's tile, from the six input blocks: the body's one store into window 6. -/
def outHidden (x0 x1 x2 : Vec F S128x1024 .f32) (x3 x4 : Vec F S1024x5120 .bf16) (x5 : Vec F S1x5120 .f32) : Vec F S128x1024 .f32 :=
  View.canon [⟨rTile, k0_pay3 (View.ld x0 rTile) (View.ld x1 rTile) (View.ld x2 rTile) (View.ld x3 rWeights) (View.ld x4 rWeights) (View.ld x5 rBias)⟩]

/-- The new cell state's tile, from the six input blocks: the body's one store into window 7. -/
def outCell (x0 x1 x2 : Vec F S128x1024 .f32) (x3 x4 : Vec F S1024x5120 .bf16) (x5 : Vec F S1x5120 .f32) : Vec F S128x1024 .f32 :=
  View.canon [⟨rTile, k0_pay2 (View.ld x0 rTile) (View.ld x1 rTile) (View.ld x2 rTile) (View.ld x3 rWeights) (View.ld x4 rWeights) (View.ld x5 rBias)⟩]

/-- One store of a whole tile covers the tile. -/
theorem cover_tile (p0 : Vec F S128x1024 .f32) (y : S128x1024.Idx) :
    ∃ pc ∈ ([⟨rTile, p0⟩] : List (View.Piece (Elt F) S128x1024 .f32)), y ∈ pc.1.set :=
  View.cover_of_tiled [⟨rTile, p0⟩] S128x1024.size (by rfl) y

/-! ## The body's triple -/

set_option maxHeartbeats 4000000 in
/-- The body on whole staging buffers — the six inputs' at contents `x0 … x5`, the two outputs' at anything — runs
    to its end leaving the inputs' as they were and the outputs' at `outHidden` and `outCell` of the inputs. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x5120 .bf16) (harg4 : arg4.IsWhole) (arg5 : Memref sig .tc .vmem S1024x5120 .bf16) (harg5 : arg5.IsWhole) (arg6 : Memref sig .tc .vmem S1x5120 .f32) (harg6 : arg6.IsWhole) (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x5120 .bf16) (x5 : Vec F S1x5120 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outHidden x0 x1 x2 x3 x4 x5) ∗ owns (c : Thread nD τ) arg8 fullShare (outCell x0 x1 x2 x3 x4 x5)) -∗ K ⟨⟩))
      ⊢ wp frame (wpE (defs₀ (F := F)) Variants.none c none) E (cc0__ortho_lstm_kernel i arg1 harg1 arg2 harg2 arg3 harg3 arg4 harg4 arg5 harg5 arg6 harg6 arg7 harg7 arg8 harg8) K := by
  simp only [cc0__ortho_lstm_kernel_eq_skeleton]; unfold cc0__ortho_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_tile _)
  iexists _; isplitr
  swap; · iexact H7
  ipureintro
  try dsimp only
  exact View.read_writes_eq_canon _ _ _ (cover_tile _)

/-! ## The description of the run -/

/-- On core `c`: the arrays as the launch finds them; after the body at point `t` each input's buffer still at its
    block and each output's at the body's result on the six input blocks; the region's invariant the plain one
    (the body uses nothing of its own); nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outHidden (iblk m c 0 t) (iblk m c 1 t) (iblk m c 2 t) (iblk m c 3 t) (iblk m c 4 t) (iblk m c 5 t)
    | ⟨7, _⟩ => outCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outHidden (iblk m c 0 t) (iblk m c 1 t) (iblk m c 2 t) (iblk m c 3 t) (iblk m c 4 t) (iblk m c 5 t) := by dsimp only [dats]
theorem after7 (c : Dev nD) (t : Fin cfg0.N) : (dats m 0 c).after 7 t = outCell (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The same, in the form the launch theorem asks for, at every point. -/
theorem body_obligation (c : Dev nD) : BodyObligation (dats (F := F) m 0 c) (defs₀ (F := F)) Variants.none () Set.univ := fun t => by
  rw [bigSep_W0, bigSep_W0]
  exact sound_body m c t

/-! ## The run -/

-- the launch theorem's implicit arguments are found by unifying its conclusion with this statement, which takes
-- unfolding plain definitions in a metavariable's type
set_option backward.isDefEq.respectTransparency.types false in
/-- From any memory with zero counters, every weakly fair execution of the entry point terminates without a fault,
    with every window's array at what the description computes and every other array as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the arrays named one by one: the two results at the description's final arrays, the eighteen
    arguments unchanged. -/
theorem run_named : θ_run defs (onTc (τ := τ) (main (F := F))) ⟨m, fun _ => 0, ρ⟩ (fun r => ∀ c : Dev nD,
      r.2.mem ((c.tc : Thread nD τ).loc main_v24_0) = (dats m 0 c).arrAt 6 cfg0.N
      ∧ r.2.mem ((c.tc : Thread nD τ).loc main_v24_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  named_of m ρ (dats m) (A_eq m) (run_main m ρ)

/-- The frame: the run ends, and the eighteen arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2.2) (run_named m ρ)

end Cert.Kernel.Launched

end
-- ==== Proof.IdealLaunch.lean ====
import proofs.«105872_j31061203485011_2_alg».proof.Proof.Gen.KernelIdeal.Launch
import proofs.«105872_j31061203485011_2_alg».proof.Proof.Gen.KernelIdeal.Skeleton
import proofs.«105872_j31061203485011_2_alg».proof.Proof.Gen.KernelIdeal.Points
import Idealize.ShloMosaic.Lib.Pipeline.FrameBody
import Idealize.ShloMosaic.Lib.Ring
import Idealize.ShloMosaic.Lib.Tactic

/-!
# The run of the five-gate cell's launch, with every array after it named

The entry point first re-lays the weights on the host — each of the ten weight matrices transposed, the five
`W` transposes set side by side into one `1024 × 5120` matrix, the five `U` transposes into another, the five
bias vectors joined into one row of `5120` — and then launches ONE grid of 128 points over the batch. Point `t`
reads rows `128 t … 128 t + 127` of the three batch arrays (data, previous hidden state, previous cell state) and
the whole of the two fused weight matrices and of the bias row, and writes rows `128 t … 128 t + 127` of the two
results. The body keeps nothing between points: it loads its six input blocks whole, computes, and stores each of
its two output blocks whole, once.

So the run is described by: the arrays as the launch finds them (`V`: the memory after the host lines), the block of
each window at a point (`iblk`), and what the body leaves in each output block as a function of the six input blocks
(`outHidden`, `outCell`: the body's two stores over the body's arithmetic). From these the library's launch theorem
gives, for every weakly fair execution, termination without a fault, each result array equal to the entry contents
overwritten block by block with what the points left, and every other array as the launch found it — in particular
the eighteen arguments, which no host line and no point writes.

Everything is stated for any reading `F` of the floats: nothing here looks inside the arithmetic.
-/

-- membership of an index in a rectangle of these extents is checked structurally, one step per coordinate
set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry point up to the launch -/

/-- Core `c`'s arrays when the grid is launched: the initial memory after the 24 host lines (ten transposes, ten
    changes of format, three joins, one reshape). -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- The entry point is the host lines followed by the launch, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 9: the launch finds it as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 10: the launch finds it as it was. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 11: the launch finds it as it was. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 12: the launch finds it as it was. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 13: the launch finds it as it was. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 14: the launch finds it as it was. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 15: the launch finds it as it was. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 16: the launch finds it as it was. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host line before the launch writes argument 17: the launch finds it as it was. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the launch finds it: rows `128 t …` of a batch array for
    windows 0, 1, 2; the whole fused matrix or bias row for windows 3, 4, 5. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point — whether the point fetched it (the
    batch windows, every point) or not (the weights and the bias, fetched once: their block index never moves) —
    for any description of the run whose arrays are `V`'s and whose body leaves the input blocks in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the launch theorem's conclusion to the arrays one by one -/

/-- For any description of the run whose arrays are the entry contents: a run ending with every window's array at
    what the description computes, and every other array as the launch found it, ends with the two results at the
    description's final arrays and the eighteen arguments as they started (a batch array is a window's array that
    is only read; the others are no window's array, and no host line writes any of them). -/
theorem named_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v24_0) = (dats 0 c).arrAt 6 cfg0.N
      ∧ r.2.mem ((c.tc : Thread nD τ).loc main_v24_1) = (dats 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c).1 6, (h c).1 7,
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## The body's accesses -/

/-- The whole of a batch tile, of a fused weight matrix, of the bias row: the only rectangles the body touches. -/
abbrev rTile : Rect S128x1024 := Rect.unit (s := S128x1024) ![0, 0] S128x1024.size inb_S128x1024_S128x1024_0_0
abbrev rWeights : Rect S1024x5120 := Rect.unit (s := S1024x5120) ![0, 0] S1024x5120.size inb_S1024x5120_S1024x5120_0_0
abbrev rBias : Rect S1x5120 := Rect.unit (s := S1x5120) ![0, 0] S1x5120.size inb_S1x5120_S1x5120_0_0

/-! ## What the body leaves in each output block -/

/-- The new hidden state's tile, from the six input blocks: the body's one store into window 6. -/
def outHidden (x0 x1 x2 : Vec F S128x1024 .f32) (x3 x4 : Vec F S1024x5120 .bf16) (x5 : Vec F S1x5120 .f32) : Vec F S128x1024 .f32 :=
  View.canon [⟨rTile, k0_pay3 (View.ld x0 rTile) (View.ld x1 rTile) (View.ld x2 rTile) (View.ld x3 rWeights) (View.ld x4 rWeights) (View.ld x5 rBias)⟩]

/-- The new cell state's tile, from the six input blocks: the body's one store into window 7. -/
def outCell (x0 x1 x2 : Vec F S128x1024 .f32) (x3 x4 : Vec F S1024x5120 .bf16) (x5 : Vec F S1x5120 .f32) : Vec F S128x1024 .f32 :=
  View.canon [⟨rTile, k0_pay2 (View.ld x0 rTile) (View.ld x1 rTile) (View.ld x2 rTile) (View.ld x3 rWeights) (View.ld x4 rWeights) (View.ld x5 rBias)⟩]

/-- One store of a whole tile covers the tile. -/
theorem cover_tile (p0 : Vec F S128x1024 .f32) (y : S128x1024.Idx) :
    ∃ pc ∈ ([⟨rTile, p0⟩] : List (View.Piece (Elt F) S128x1024 .f32)), y ∈ pc.1.set :=
  View.cover_of_tiled [⟨rTile, p0⟩] S128x1024.size (by rfl) y

/-! ## The body's triple -/

set_option maxHeartbeats 4000000 in
/-- The body on whole staging buffers — the six inputs' at contents `x0 … x5`, the two outputs' at anything — runs
    to its end leaving the inputs' as they were and the outputs' at `outHidden` and `outCell` of the inputs. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x5120 .bf16) (harg4 : arg4.IsWhole) (arg5 : Memref sig .tc .vmem S1024x5120 .bf16) (harg5 : arg5.IsWhole) (arg6 : Memref sig .tc .vmem S1x5120 .f32) (harg6 : arg6.IsWhole) (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x5120 .bf16) (x5 : Vec F S1x5120 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outHidden x0 x1 x2 x3 x4 x5) ∗ owns (c : Thread nD τ) arg8 fullShare (outCell x0 x1 x2 x3 x4 x5)) -∗ K ⟨⟩))
      ⊢ wp frame (wpE (defs₀ (F := F)) Variants.none c none) E (cc0__ortho_lstm_kernel i arg1 harg1 arg2 harg2 arg3 harg3 arg4 harg4 arg5 harg5 arg6 harg6 arg7 harg7 arg8 harg8) K := by
  simp only [cc0__ortho_lstm_kernel_eq_skeleton]; unfold cc0__ortho_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_tile _)
  iexists _; isplitr
  swap; · iexact H7
  ipureintro
  try dsimp only
  exact View.read_writes_eq_canon _ _ _ (cover_tile _)

/-! ## The description of the run -/

/-- On core `c`: the arrays as the launch finds them; after the body at point `t` each input's buffer still at its
    block and each output's at the body's result on the six input blocks; the region's invariant the plain one
    (the body uses nothing of its own); nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outHidden (iblk m c 0 t) (iblk m c 1 t) (iblk m c 2 t) (iblk m c 3 t) (iblk m c 4 t) (iblk m c 5 t)
    | ⟨7, _⟩ => outCell (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outHidden (iblk m c 0 t) (iblk m c 1 t) (iblk m c 2 t) (iblk m c 3 t) (iblk m c 4 t) (iblk m c 5 t) := by dsimp only [dats]
theorem after7 (c : Dev nD) (t : Fin cfg0.N) : (dats m 0 c).after 7 t = outCell (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The same, in the form the launch theorem asks for, at every point. -/
theorem body_obligation (c : Dev nD) : BodyObligation (dats (F := F) m 0 c) (defs₀ (F := F)) Variants.none () Set.univ := fun t => by
  rw [bigSep_W0, bigSep_W0]
  exact sound_body m c t

/-! ## The run -/

-- the launch theorem's implicit arguments are found by unifying its conclusion with this statement, which takes
-- unfolding plain definitions in a metavariable's type
set_option backward.isDefEq.respectTransparency.types false in
/-- From any memory with zero counters, every weakly fair execution of the entry point terminates without a fault,
    with every window's array at what the description computes and every other array as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the arrays named one by one: the two results at the description's final arrays, the eighteen
    arguments unchanged. -/
theorem run_named : θ_run defs (onTc (τ := τ) (main (F := F))) ⟨m, fun _ => 0, ρ⟩ (fun r => ∀ c : Dev nD,
      r.2.mem ((c.tc : Thread nD τ).loc main_v24_0) = (dats m 0 c).arrAt 6 cfg0.N
      ∧ r.2.mem ((c.tc : Thread nD τ).loc main_v24_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  named_of m ρ (dats m) (A_eq m) (run_main m ρ)

/-- The frame: the run ends, and the eighteen arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2.2) (run_named m ρ)

end Cert.KernelIdeal.Launched

end
-- ==== Proof.CellSpec.lean ====
import Idealize.ShloMosaic.PureOps.Ideal
import Idealize.ShloMosaic.PureOps.Ideal.Laws
import Idealize.ShloMosaic.Lib.ValueIdx

/-!
# The five-gate cell, one batch row at a time

Each row of the two results depends on the same row of the three batch arrays (data `d`, previous hidden state `h`,
previous cell state `c`) and on the weights only. With `σ` the logistic function, for output column `j`:

* a gate's pre-activation is `pre j = (Σₖ d k · W j k + b j) + Σₖ h k · U j k` — `d · Wᵀ + b + h · Uᵀ`;
* the new cell state is `c' j = σ (preᵢ j) · tanh (pre_c j) + σ (pre_f j) · c j`;
* the row's correction factor is `(Σⱼ c' j · c j) / (Σⱼ c j · c j)`, ONE number per row;
* the new hidden state is `σ (pre_o j) · tanh (c' j − σ (pre_g j) · factor · c j)`.

All of it is stated on the extended reals with the exact operations (the quotient is the one that is total there),
so nothing below needs the inputs to be finite: the only law used to join two spellings of this function is that
addition of extended reals is commutative and associative.
-/

noncomputable section

namespace Cert.CellSpec

open Idealize.ShloMosaic Idealize.ShloMosaic.ValueIdx

/-- A row of 1024 numbers. -/
abbrev Row := Fin 1024 → EReal
/-- A weight matrix read as `W j k`: output column `j`, input column `k` (the layout of the arguments). -/
abbrev Mat := Fin 1024 → Fin 1024 → EReal

/-- The fifteen parameter arrays: for each gate (input, forget, output, candidate, correction) the matrix applied to
    the data, the bias, and the matrix applied to the previous hidden state. -/
structure Params where
  Wi : Mat
  bi : Row
  Ui : Mat
  Wf : Mat
  bf : Row
  Uf : Mat
  Wo : Mat
  bo : Row
  Uo : Mat
  Wc : Mat
  bc : Row
  Uc : Mat
  Wg : Mat
  bg : Row
  Ug : Mat

/-- A gate's pre-activation at output column `j`: `(d · Wᵀ + b) + h · Uᵀ`, in that order of addition. -/
def pre (d h : Row) (W : Mat) (b : Row) (U : Mat) (j : Fin 1024) : EReal :=
  (∑ k : Fin 1024, d k * W j k + b j) + ∑ k : Fin 1024, h k * U j k

/-- Adding the bias last instead — both products first — gives the same number: addition of extended reals is
    commutative and associative (no finiteness is needed for that). -/
theorem pre_bias_last (d h : Row) (W : Mat) (b : Row) (U : Mat) (j : Fin 1024) :
    (∑ k : Fin 1024, d k * W j k + ∑ k : Fin 1024, h k * U j k) + b j = pre d h W b U j :=
  add_right_comm _ _ _

/-- The new cell state at column `j`. -/
def cellRow (P : Params) (d h c : Row) (j : Fin 1024) : EReal :=
  Ideal.logistic (pre d h P.Wi P.bi P.Ui j) * Ideal.tanh (pre d h P.Wc P.bc P.Uc j)
    + Ideal.logistic (pre d h P.Wf P.bf P.Uf j) * c j

/-- The row's correction factor: the new cell state's component along the old one, over the old one's square. -/
def factor (P : Params) (d h c : Row) : EReal :=
  Ideal.div (∑ j : Fin 1024, cellRow P d h c j * c j) (∑ j : Fin 1024, c j * c j)

/-- The new hidden state at column `j`. -/
def hiddenRow (P : Params) (d h c : Row) (j : Fin 1024) : EReal :=
  Ideal.logistic (pre d h P.Wo P.bo P.Uo j)
    * Ideal.tanh (cellRow P d h c j - Ideal.logistic (pre d h P.Wg P.bg P.Ug j) * factor P d h c * c j)

/-- The word `0x3F800000` is the number one. -/
theorem one_f32 : Ideal.ofBits .f32 0x3F800000#32 = 1 := IdealRules.sign_bit.ideal_onePat .f32

/-- The logistic function spelled out with a negation, an exponential, a sum with one and a quotient of one — the
    way it reaches the host — is the logistic function. -/
theorem logistic_spelled (x : EReal) :
    Ideal.div (Ideal.ofBits .f32 0x3F800000#32) (Ideal.ofBits .f32 0x3F800000#32 + Ideal.exp (-x)) = Ideal.logistic x := by
  rw [one_f32]; rfl

/-! ## The same, over whole arrays

The arguments are a `16384 × 1024` array for each of `d`, `h`, `c`, a `1024 × 1024` array for each weight matrix, a
vector of 1024 for each bias. The two results, as functions of them: entry `(r, j)` is the row description on row `r`. -/

/-- A batch argument, a weight argument, a bias argument, as functions of their indices. -/
abbrev BatchArr := (⟨2, ![16384, 1024]⟩ : Shape).Idx → EReal
abbrev WeightArr := (⟨2, ![1024, 1024]⟩ : Shape).Idx → EReal
abbrev BiasArr := (⟨1, ![1024]⟩ : Shape).Idx → EReal

/-- Row `r` of a batch array. -/
def rowOf (x : BatchArr) (r : Fin 16384) : Row := fun k => x (ix2 r k)
/-- A weight argument read as `W j k`. -/
def matOf (W : WeightArr) : Mat := fun j k => W (ix2 j k)
/-- A bias argument read as `b j`. -/
def vecOf (b : BiasArr) : Row := fun j => b (ix1 j)

/-- The parameters, from the fifteen weight and bias arguments in the entry point's order. -/
def paramsOf (x3 : WeightArr) (x4 : BiasArr) (x5 x6 : WeightArr) (x7 : BiasArr) (x8 x9 : WeightArr) (x10 : BiasArr)
    (x11 x12 : WeightArr) (x13 : BiasArr) (x14 x15 : WeightArr) (x16 : BiasArr) (x17 : WeightArr) : Params where
  Wi := matOf x3
  bi := vecOf x4
  Ui := matOf x5
  Wf := matOf x6
  bf := vecOf x7
  Uf := matOf x8
  Wo := matOf x9
  bo := vecOf x10
  Uo := matOf x11
  Wc := matOf x12
  bc := vecOf x13
  Uc := matOf x14
  Wg := matOf x15
  bg := vecOf x16
  Ug := matOf x17

/-- The new cell state as one array. -/
def cellArr (P : Params) (x0 x1 x2 : BatchArr) : BatchArr :=
  fun i => cellRow P (rowOf x0 (i 0)) (rowOf x1 (i 0)) (rowOf x2 (i 0)) (i 1)

/-- The new hidden state as one array. -/
def hiddenArr (P : Params) (x0 x1 x2 : BatchArr) : BatchArr :=
  fun i => hiddenRow P (rowOf x0 (i 0)) (rowOf x1 (i 0)) (rowOf x2 (i 0)) (i 1)

end Cert.CellSpec

end
-- ==== Proof.LibKeepdims.lean ====
import Idealize.ShloMosaic.Lib.Pipeline.Value
import Idealize.ShloMosaic.Lib.ValueIdx

/-!
# A column vector's two layout steps read at an index

A row-wise sum that keeps its axis (`sum (…, axis = -1, keepdims = True)`) reaches a kernel as a vector `[a]`
re-laid as a column `[a, 1]` and later broadcast along the rows to `[a, b]`. Both steps read one entry of the
operand: entry `(i, 0)` of the column is entry `i` of the vector, and entry `(i, c)` of the broadcast is entry
`(i, 0)` of the column. (The companions for a leading unit axis, `[a] → [1, a]` and `[1, b] → [a, b]`, are in the
library's layout file; these are the trailing-unit-axis forms, in the same style.)
-/

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.IdealBody.lean ====
import proofs.«105872_j31061203485011_2_alg».proof.Proof.Gen.KernelIdeal.Skeleton
import proofs.«105872_j31061203485011_2_alg».proof.Proof.CellSpec
import proofs.«105872_j31061203485011_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

/-!
# One point's arithmetic computes the cell for its 128 rows

At a grid point the body holds a tile of 128 rows of each batch array, the two fused `1024 × 5120` matrices (the five
gates' transposed weights side by side: the input gate's in columns `0 … 1023`, then the forget, output, candidate
and correction gates', 1024 columns each) and the fused bias row. It forms ONE accumulator
`acc = d · Wfused + h · Ufused + bias` of 5120 columns and cuts it into the five gates' pre-activations. At local row
`p` and a gate's column `c`,
`acc (p, c) = (Σₖ d (p, k) · Wfused (k, c) + Σₖ h (p, k) · Ufused (k, c)) + bias c`,
which is the gate's pre-activation with the bias added last; the two orders of addition agree.
The rest — logistic and tanh of the slices, the two row sums, their quotient broadcast along the row — is the row
description of the cell, applied to row `p` of the three tiles.
What the fused operands hold is taken here as a hypothesis (`FusedAs`): that row `k` of a gate's column `j` in a
fused matrix is entry `(j, k)` of that gate's matrix, and likewise for the bias.
-/

noncomputable section

namespace Cert.KernelIdeal.BodyRows

open Cert.KernelIdeal Cert.KernelIdeal.Gen Cert.CellSpec Idealize.ShloMosaic Idealize.ShloMosaic.ValueIdx

/-- The fused product's dimension record. -/
abbrev DD := dot_S128x1024_S1024x5120_S128x5120_1_0_0_1_n_n

/-- Row `p` of a tile. -/
def rowT (x : FVec Ideal S128x1024 .f32) (p : Fin 128) : Row := fun k => x (ix2 p k)

/-! The five gates' columns of the fused operands. -/
abbrev colI (j : Fin 1024) : Fin 5120 := ⟨0 + j.val, by have := j.isLt; omega⟩
abbrev colF (j : Fin 1024) : Fin 5120 := ⟨1024 + j.val, by have := j.isLt; omega⟩
abbrev colO (j : Fin 1024) : Fin 5120 := ⟨2048 + j.val, by have := j.isLt; omega⟩
abbrev colC (j : Fin 1024) : Fin 5120 := ⟨3072 + j.val, by have := j.isLt; omega⟩
abbrev colG (j : Fin 1024) : Fin 5120 := ⟨4096 + j.val, by have := j.isLt; omega⟩

/-- What the fused operands hold, in terms of the parameters. -/
structure FusedAs (P : Params) (w u : FVec Ideal S1024x5120 .bf16) (b : FVec Ideal S1x5120 .f32) : Prop where
  Wi : ∀ j k, w (ix2 k (colI j)) = P.Wi j k
  Wf : ∀ j k, w (ix2 k (colF j)) = P.Wf j k
  Wo : ∀ j k, w (ix2 k (colO j)) = P.Wo j k
  Wc : ∀ j k, w (ix2 k (colC j)) = P.Wc j k
  Wg : ∀ j k, w (ix2 k (colG j)) = P.Wg j k
  Ui : ∀ j k, u (ix2 k (colI j)) = P.Ui j k
  Uf : ∀ j k, u (ix2 k (colF j)) = P.Uf j k
  Uo : ∀ j k, u (ix2 k (colO j)) = P.Uo j k
  Uc : ∀ j k, u (ix2 k (colC j)) = P.Uc j k
  Ug : ∀ j k, u (ix2 k (colG j)) = P.Ug j k
  bi : ∀ j, b (ix2 (0 : Fin 1) (colI j)) = P.bi j
  bf : ∀ j, b (ix2 (0 : Fin 1) (colF j)) = P.bf j
  bo : ∀ j, b (ix2 (0 : Fin 1) (colO j)) = P.bo j
  bc : ∀ j, b (ix2 (0 : Fin 1) (colC j)) = P.bc j
  bg : ∀ j, b (ix2 (0 : Fin 1) (colG j)) = P.bg j

/-! ## The fused product at an entry -/

theorem lhs0 (i : S128x5120.Idx) (q : DD.contr.Idx) : (DD.lhsIdx i q 0).val = (i 0).val := by
  unfold DotDims.lhsIdx
  rw [dif_neg (show ¬(0 : Fin S128x1024.rank) ∈ DD.lhsBatch by decide), dif_pos (show (0 : Fin S128x1024.rank) ∈ DD.lhsNonContracting by decide)]
  rfl
theorem lhs1 (i : S128x5120.Idx) (q : DD.contr.Idx) : (DD.lhsIdx i q 1).val = (q ⟨0, by decide⟩).val :=
  DD.lhsIdx_val_of_single rfl i q
theorem rhs0 (i : S128x5120.Idx) (q : DD.contr.Idx) : (DD.rhsIdx i q 0).val = (q ⟨0, by decide⟩).val :=
  DD.rhsIdx_val_of_single rfl i q
theorem rhs1 (i : S128x5120.Idx) (q : DD.contr.Idx) : (DD.rhsIdx i q 1).val = (i 1).val := by
  unfold DotDims.rhsIdx
  rw [dif_neg (show ¬(1 : Fin S1024x5120.rank) ∈ DD.rhsBatch by decide), dif_pos (show (1 : Fin S1024x5120.rank) ∈ DD.rhsNonContracting by decide)]
  rfl

/-- A product of a tile with a fused matrix into the zero accumulator, at row `p` and column `c`: the sum over the
    1024 contracted positions of the products. -/
theorem fused_dot_apply (a : FVec Ideal S128x1024 .bf16) (w : FVec Ideal S1024x5120 .bf16) (p : Fin 128) (c : Fin 5120) :
    matmul DD none a w (constant (F := Ideal) S128x5120 .f32 0x00000000#32) (ix2 p c)
      = ∑ k : Fin 1024, a (ix2 p k) * w (ix2 k c) := by
  simp only [matmul]
  rw [Ideal.matmul_constant_zero_apply, ← Equiv.sum_comp (ValueIdx.contrEquiv1 DD 1024 rfl rfl).symm]
  refine Finset.sum_congr rfl fun k _ => ?_
  have hk := ValueIdx.contrEquiv1_symm_val DD 1024 rfl rfl k
  have el : DD.lhsIdx (ix2 p c) ((ValueIdx.contrEquiv1 DD 1024 rfl rfl).symm k) = ix2 p k := funext fun a => Fin.ext (by
    match a with
    | ⟨0, _⟩ => exact lhs0 _ _
    | ⟨1, _⟩ => exact (lhs1 _ _).trans hk)
  have er : DD.rhsIdx (ix2 p c) ((ValueIdx.contrEquiv1 DD 1024 rfl rfl).symm k) = ix2 k c := funext fun a => Fin.ext (by
    match a with
    | ⟨0, _⟩ => exact (rhs0 _ _).trans hk
    | ⟨1, _⟩ => exact rhs1 _ _)
  rw [el, er]

/-- The accumulator at row `p`, column `c`: both products, then the bias. -/
theorem acc_apply (v0 v1 : FVec Ideal S128x1024 .f32) (v5 v8 : FVec Ideal S1024x5120 .bf16) (v12 : FVec Ideal S1x5120 .f32)
    (p : Fin 128) (c : Fin 5120) :
    k0_pay1 (F := Ideal) v0 v1 v5 v8 v12 (ix2 p c)
      = (∑ k : Fin 1024, v0 (ix2 p k) * v5 (ix2 k c) + ∑ k : Fin 1024, v1 (ix2 p k) * v8 (ix2 k c)) + v12 (ix2 (0 : Fin 1) c) := by
  unfold k0_pay1
  rw [addf_apply, addf_apply, shapeCast_self, shapeCast_self, shapeCast_self, fused_dot_apply, fused_dot_apply,
    broadcastTo_1b_ab_apply]
  rfl

/-- So where column `c` of the fused operands holds a gate's weights and bias for output column `q`, the accumulator
    there is that gate's pre-activation on row `p` of the tiles. -/
theorem pre_at (v0 v1 : FVec Ideal S128x1024 .f32) (v5 v8 : FVec Ideal S1024x5120 .bf16) (v12 : FVec Ideal S1x5120 .f32)
    (p : Fin 128) (c : Fin 5120) (W : Mat) (b : Row) (U : Mat) (q : Fin 1024)
    (hW : ∀ k, v5 (ix2 k c) = W q k) (hU : ∀ k, v8 (ix2 k c) = U q k) (hb : v12 (ix2 (0 : Fin 1) c) = b q) :
    k0_pay1 (F := Ideal) v0 v1 v5 v8 v12 (ix2 p c) = pre (rowT v0 p) (rowT v1 p) W b U q := by
  rw [acc_apply]
  simp only [hW, hU, hb]
  exact pre_bias_last _ _ _ _ _ _

/-! ## The five slices of the accumulator -/

theorem sliceI (acc : FVec Ideal S128x5120 .f32) (h : S128x5120.Slices ![0, 0] S128x1024) (p : Fin 128) (q : Fin 1024) :
    extractStridedSlice S128x1024 ![0, 0] acc h (ix2 p q) = acc (ix2 p (colI q)) :=
  slice2_axis1_apply 0 acc h p q (colI q) rfl
theorem sliceF (acc : FVec Ideal S128x5120 .f32) (h : S128x5120.Slices ![0, 1024] S128x1024) (p : Fin 128) (q : Fin 1024) :
    extractStridedSlice S128x1024 ![0, 1024] acc h (ix2 p q) = acc (ix2 p (colF q)) :=
  slice2_axis1_apply 1024 acc h p q (colF q) rfl
theorem sliceO (acc : FVec Ideal S128x5120 .f32) (h : S128x5120.Slices ![0, 2048] S128x1024) (p : Fin 128) (q : Fin 1024) :
    extractStridedSlice S128x1024 ![0, 2048] acc h (ix2 p q) = acc (ix2 p (colO q)) :=
  slice2_axis1_apply 2048 acc h p q (colO q) rfl
theorem sliceC (acc : FVec Ideal S128x5120 .f32) (h : S128x5120.Slices ![0, 3072] S128x1024) (p : Fin 128) (q : Fin 1024) :
    extractStridedSlice S128x1024 ![0, 3072] acc h (ix2 p q) = acc (ix2 p (colC q)) :=
  slice2_axis1_apply 3072 acc h p q (colC q) rfl
theorem sliceG (acc : FVec Ideal S128x5120 .f32) (h : S128x5120.Slices ![0, 4096] S128x1024) (p : Fin 128) (q : Fin 1024) :
    extractStridedSlice S128x1024 ![0, 4096] acc h (ix2 p q) = acc (ix2 p (colG q)) :=
  slice2_axis1_apply 4096 acc h p q (colG q) rfl

theorem logistic_apply {s : Shape} (a : FVec Ideal s .f32) (i : s.Idx) : logistic a i = Ideal.logistic (a i) := rfl
theorem tanh_apply {s : Shape} (a : FVec Ideal s .f32) (i : s.Idx) : tanh a i = Ideal.tanh (a i) := rfl

/-! ## The new cell state -/

/-- The body's new cell state at local row `p`, column `q`. -/
theorem cell_at (P : Params) (v0 v1 v2 : FVec Ideal S128x1024 .f32) (v5 v8 : FVec Ideal S1024x5120 .bf16) (v12 : FVec Ideal S1x5120 .f32)
    (hF : FusedAs P v5 v8 v12) (p : Fin 128) (q : Fin 1024) :
    k0_pay2 (F := Ideal) v0 v1 v2 v5 v8 v12 (ix2 p q) = cellRow P (rowT v0 p) (rowT v1 p) (rowT v2 p) q := by
  unfold k0_pay2
  rw [addf_apply, mulf_apply, mulf_apply, logistic_apply, tanh_apply, logistic_apply, sliceI, sliceC, sliceF,
    pre_at v0 v1 v5 v8 v12 p (colI q) P.Wi P.bi P.Ui q (hF.Wi q) (hF.Ui q) (hF.bi q),
    pre_at v0 v1 v5 v8 v12 p (colC q) P.Wc P.bc P.Uc q (hF.Wc q) (hF.Uc q) (hF.bc q),
    pre_at v0 v1 v5 v8 v12 p (colF q) P.Wf P.bf P.Uf q (hF.Wf q) (hF.Uf q) (hF.bf q)]
  rfl

/-! ## The new hidden state -/

/-- A sum along the columns of a tile, at row `p`. -/
theorem rowsum_at (src : FVec Ideal S128x1024 .f32) (h : S128x1024.Reduces [1] S128) (hφ : FKind.Formats .f32)
    (hacc : (0x00000000#32 : BitVec 32) = FKind.add.neutral .f32 hφ) (p : Fin 128) :
    multiReduction (F := Ideal) .add [1] S128 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  exact funext fun a => Fin.ext (by match a with | ⟨0, _⟩ => rfl | ⟨1, _⟩ => rfl)

/-- The body's new hidden state at local row `p`, column `q`. -/
theorem hidden_at (P : Params) (v0 v1 v2 : FVec Ideal S128x1024 .f32) (v5 v8 : FVec Ideal S1024x5120 .bf16) (v12 : FVec Ideal S1x5120 .f32)
    (hF : FusedAs P v5 v8 v12) (p : Fin 128) (q : Fin 1024) :
    k0_pay3 (F := Ideal) v0 v1 v2 v5 v8 v12 (ix2 p q) = hiddenRow P (rowT v0 p) (rowT v1 p) (rowT v2 p) q := by
  have hnum : multiReduction (F := Ideal) .add [1] S128 (mulf (k0_pay2 v0 v1 v2 v5 v8 v12) v2) 0x00000000#32 reduces_S128x1024_S128 (.inl rfl) rfl (ix1 p)
      = ∑ j : Fin 1024, cellRow P (rowT v0 p) (rowT v1 p) (rowT v2 p) j * rowT v2 p j := by
    refine (rowsum_at _ _ _ _ p).trans (Finset.sum_congr rfl fun j _ => ?_)
    rw [mulf_apply, cell_at P v0 v1 v2 v5 v8 v12 hF p j]
    rfl
  have hden : multiReduction (F := Ideal) .add [1] S128 (mulf v2 v2) 0x00000000#32 reduces_S128x1024_S128 (.inl rfl) rfl (ix1 p)
      = ∑ j : Fin 1024, rowT v2 p j * rowT v2 p j := rowsum_at _ _ _ _ p
  unfold k0_pay3
  rw [mulf_apply, logistic_apply, tanh_apply, subf_apply, mulf_apply, mulf_apply, logistic_apply,
    broadcastTo_a1_ab_apply, divf_apply, shapeCast_a_a1_apply, shapeCast_a_a1_apply, hnum, hden,
    cell_at P v0 v1 v2 v5 v8 v12 hF p q, sliceO, sliceG,
    pre_at v0 v1 v5 v8 v12 p (colO q) P.Wo P.bo P.Uo q (hF.Wo q) (hF.Uo q) (hF.bo q),
    pre_at v0 v1 v5 v8 v12 p (colG q) P.Wg P.bg P.Ug q (hF.Wg q) (hF.Ug q) (hF.bg q)]
  rfl

end Cert.KernelIdeal.BodyRows

end
-- ==== Proof.LibNary5.lean ====
import Idealize.ShloMosaic.Lib.StableHlo.Run

/-!
# A host operation of five operands, read with each operand at its own reference

A join of five arrays is one host line with five operand references. Its result, read off a valuation, applies the
line's function to the family `k ↦ contents of operand k`; written that way the operand under the binder is not a
literal reference, and nothing more can be said about its contents. This is the same result with the five contents
listed one by one, so that each can in turn be traced back through the lines before (the library has this for four
operands; this is five).
-/

namespace Idealize.ShloMosaic.StableHlo

open Idealize.ShloMosaic Idealize.SL.Sem

variable {τ : Topo} {sig : RefSig} {Val : EltTy → Type} {x a b c e y : Ref sig .tc}

/-- The result of a five-operand host line at its result reference: its function of the five operands' contents,
    each at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

end Idealize.ShloMosaic.StableHlo
-- ==== Proof.IdealFused.lean ====
import proofs.«105872_j31061203485011_2_alg».proof.Proof.IdealLaunch
import proofs.«105872_j31061203485011_2_alg».proof.Proof.IdealBody
import proofs.«105872_j31061203485011_2_alg».proof.Proof.LibNary5
import Idealize.ShloMosaic.Lib.StableHlo.Run
import Idealize.ShloMosaic.Lib.ValueLayout

/-!
# What the launch finds in the fused operands

Before the launch the host transposes each of the ten weight matrices, narrows it (no change of value here), and sets
the five `W` transposes side by side into one `1024 × 5120` matrix and the five `U` transposes into another; the five
bias vectors are joined end to end and laid out as one row. Tracing the three operands back through the 24 host lines
gives each as that expression of the arguments; read at an entry, column `1024 n + j`, row `k` of a fused matrix is
entry `(k, j)` of gate `n`'s transpose, that is entry `(j, k)` of gate `n`'s matrix, and entry `1024 n + j` of the
fused bias is entry `j` of gate `n`'s bias. Since these windows' blocks are the whole arrays at every point, this is
what every point's body loads.
-/

set_option maxRecDepth 16384

noncomputable section

namespace Cert.KernelIdeal.Fused

open Cert.KernelIdeal Cert.KernelIdeal.Gen Cert.KernelIdeal.Launched Cert.KernelIdeal.BodyRows Cert.CellSpec
open Idealize.ShloMosaic Idealize.ShloMosaic.TcCoe Idealize.ShloMosaic.ValueIdx Idealize.ShloMosaic.StableHlo Idealize.SL.Sem

variable (m : (ℓ : Loc nD τ sig) → Buf (Elt Ideal) ℓ)

section Trace

-- the host lines' builders are compared by name only while tracing: a line of one kind is never unfolded to see
-- whether it might be a line of another kind
attribute [local irreducible] StableHlo.unary StableHlo.nary StableHlo.reshape

/-- Follow one array back through the host lines: at each line, either the line wrote it (then it is the line's
    function of its operands' contents) or it did not (then it is what was there before). -/
local macro "trace_host" : tactic =>
  `(tactic| (simp only [after_cons, after_nil]
             repeat (first
               | rw [nary5_result] | rw [unary_result] | rw [reshape_result]
               | (rw [unary_result_ne]; rotate_left; decide)
               | (rw [nary_result_ne]; rotate_left; decide)
               | (rw [reshape_result_ne]; rotate_left; decide))))

/-- The five narrowed transposes, as the pieces of a join along the columns. -/
abbrev joinedW (g0 g1 g2 g3 g4 : FVec Ideal S1024x1024 .f32) : List ((s : Shape) × (s.Idx → Ideal .bf16)) :=
  [⟨S1024x1024, truncf .bf16 (transpose S1024x1024 [1, 0] g0 transposes_S1024x1024_S1024x1024_1_0) bitsLt_bf16_f32⟩,
   ⟨S1024x1024, truncf .bf16 (transpose S1024x1024 [1, 0] g1 transposes_S1024x1024_S1024x1024_1_0) bitsLt_bf16_f32⟩,
   ⟨S1024x1024, truncf .bf16 (transpose S1024x1024 [1, 0] g2 transposes_S1024x1024_S1024x1024_1_0) bitsLt_bf16_f32⟩,
   ⟨S1024x1024, truncf .bf16 (transpose S1024x1024 [1, 0] g3 transposes_S1024x1024_S1024x1024_1_0) bitsLt_bf16_f32⟩,
   ⟨S1024x1024, truncf .bf16 (transpose S1024x1024 [1, 0] g4 transposes_S1024x1024_S1024x1024_1_0) bitsLt_bf16_f32⟩]

/-- The five bias vectors, as the pieces of a join end to end. -/
abbrev joinedB (b0 b1 b2 b3 b4 : FVec Ideal S1024 .f32) : List ((s : Shape) × (s.Idx → Ideal .f32)) :=
  [⟨S1024, b0⟩, ⟨S1024, b1⟩, ⟨S1024, b2⟩, ⟨S1024, b3⟩, ⟨S1024, b4⟩]

/-! ## The three operands as expressions of the arguments -/

set_option maxHeartbeats 4000000 in
/-- The fused `W` matrix at the launch. -/
theorem fusedW_eq (c : Dev nD) :
    V m c main_v10 = concatenate S1024x5120 1 (joinedW (m ((c : Thread nD τ).loc main_arg3)) (m ((c : Thread nD τ).loc main_arg6)) (m ((c : Thread nD τ).loc main_arg9)) (m ((c : Thread nD τ).loc main_arg12)) (m ((c : Thread nD τ).loc main_arg15))) concatenates_S1024x1024_S1024x1024_S1024x1024_S1024x1024_S1024x1024_S1024x5120_d1 := by
  dsimp only [V, hostOps0]
  trace_host
  rfl

set_option maxHeartbeats 4000000 in
/-- The fused `U` matrix at the launch. -/
theorem fusedU_eq (c : Dev nD) :
    V m c main_v21 = concatenate S1024x5120 1 (joinedW (m ((c : Thread nD τ).loc main_arg5)) (m ((c : Thread nD τ).loc main_arg8)) (m ((c : Thread nD τ).loc main_arg11)) (m ((c : Thread nD τ).loc main_arg14)) (m ((c : Thread nD τ).loc main_arg17))) concatenates_S1024x1024_S1024x1024_S1024x1024_S1024x1024_S1024x1024_S1024x5120_d1 := by
  dsimp only [V, hostOps0]
  trace_host
  rfl

set_option maxHeartbeats 4000000 in
/-- The fused bias row at the launch. -/
theorem fusedB_eq (c : Dev nD) :
    V m c main_v23 = shapeCast S1x5120 (concatenate S5120 0 (joinedB (m ((c : Thread nD τ).loc main_arg4)) (m ((c : Thread nD τ).loc main_arg7)) (m ((c : Thread nD τ).loc main_arg10)) (m ((c : Thread nD τ).loc main_arg13)) (m ((c : Thread nD τ).loc main_arg16))) concatenates_S1024_S1024_S1024_S1024_S1024_S5120_d0) shapeCasts_S5120_S1x5120 := by
  dsimp only [V, hostOps0]
  trace_host
  rfl

end Trace

/-! ## A join read at an entry -/

/-- Column `0 + j` of the five transposes side by side is column `j` of the first transpose: entry `(j, k)` of its matrix. -/
theorem joined_colI (g0 g1 g2 g3 g4 : FVec Ideal S1024x1024 .f32) (k j : Fin 1024) :
    concatenate S1024x5120 1 (joinedW g0 g1 g2 g3 g4) concatenates_S1024x1024_S1024x1024_S1024x1024_S1024x1024_S1024x1024_S1024x5120_d1 (ix2 k (colI j)) = g0 (ix2 j k) := by
  refine (concatenate_apply_piece 1 (joinedW g0 g1 g2 g3 g4) concatenates_S1024x1024_S1024x1024_S1024x1024_S1024x1024_S1024x1024_S1024x5120_d1 (ix2 k (colI j)) 0 (by show 0 < 5; omega) S1024x1024 _ rfl rfl 0 rfl (ix2 k j) ?_ rfl).trans ?_
  · intro b hb
    match b with
    | ⟨0, _⟩ => rfl
    | ⟨1, _⟩ => exact absurd rfl hb
  · exact transpose_ix2_apply g0 transposes_S1024x1024_S1024x1024_1_0 k j

/-- Column `1024 + j` of the five transposes side by side is column `j` of the second transpose: entry `(j, k)` of its matrix. -/
theorem joined_colF (g0 g1 g2 g3 g4 : FVec Ideal S1024x1024 .f32) (k j : Fin 1024) :
    concatenate S1024x5120 1 (joinedW g0 g1 g2 g3 g4) concatenates_S1024x1024_S1024x1024_S1024x1024_S1024x1024_S1024x1024_S1024x5120_d1 (ix2 k (colF j)) = g1 (ix2 j k) := by
  refine (concatenate_apply_piece 1 (joinedW g0 g1 g2 g3 g4) concatenates_S1024x1024_S1024x1024_S1024x1024_S1024x1024_S1024x1024_S1024x5120_d1 (ix2 k (colF j)) 1 (by show 1 < 5; omega) S1024x1024 _ rfl rfl 1024 rfl (ix2 k j) ?_ rfl).trans ?_
  · intro b hb
    match b with
    | ⟨0, _⟩ => rfl
    | ⟨1, _⟩ => exact absurd rfl hb
  · exact transpose_ix2_apply g1 transposes_S1024x1024_S1024x1024_1_0 k j

/-- Column `2048 + j` of the five transposes side by side is column `j` of the third transpose: entry `(j, k)` of its matrix. -/
theorem joined_colO (g0 g1 g2 g3 g4 : FVec Ideal S1024x1024 .f32) (k j : Fin 1024) :
    concatenate S1024x5120 1 (joinedW g0 g1 g2 g3 g4) concatenates_S1024x1024_S1024x1024_S1024x1024_S1024x1024_S1024x1024_S1024x5120_d1 (ix2 k (colO j)) = g2 (ix2 j k) := by
  refine (concatenate_apply_piece 1 (joinedW g0 g1 g2 g3 g4) concatenates_S1024x1024_S1024x1024_S1024x1024_S1024x1024_S1024x1024_S1024x5120_d1 (ix2 k (colO j)) 2 (by show 2 < 5; omega) S1024x1024 _ rfl rfl 2048 rfl (ix2 k j) ?_ rfl).trans ?_
  · intro b hb
    match b with
    | ⟨0, _⟩ => rfl
    | ⟨1, _⟩ => exact absurd rfl hb
  · exact transpose_ix2_apply g2 transposes_S1024x1024_S1024x1024_1_0 k j

/-- Column `3072 + j` of the five transposes side by side is column `j` of the fourth transpose: entry `(j, k)` of its matrix. -/
theorem joined_colC (g0 g1 g2 g3 g4 : FVec Ideal S1024x1024 .f32) (k j : Fin 1024) :
    concatenate S1024x5120 1 (joinedW g0 g1 g2 g3 g4) concatenates_S1024x1024_S1024x1024_S1024x1024_S1024x1024_S1024x1024_S1024x5120_d1 (ix2 k (colC j)) = g3 (ix2 j k) := by
  refine (concatenate_apply_piece 1 (joinedW g0 g1 g2 g3 g4) concatenates_S1024x1024_S1024x1024_S1024x1024_S1024x1024_S1024x1024_S1024x5120_d1 (ix2 k (colC j)) 3 (by show 3 < 5; omega) S1024x1024 _ rfl rfl 3072 rfl (ix2 k j) ?_ rfl).trans ?_
  · intro b hb
    match b with
    | ⟨0, _⟩ => rfl
    | ⟨1, _⟩ => exact absurd rfl hb
  · exact transpose_ix2_apply g3 transposes_S1024x1024_S1024x1024_1_0 k j

/-- Column `4096 + j` of the five transposes side by side is column `j` of the fifth transpose: entry `(j, k)` of its matrix. -/
theorem joined_colG (g0 g1 g2 g3 g4 : FVec Ideal S1024x1024 .f32) (k j : Fin 1024) :
    concatenate S1024x5120 1 (joinedW g0 g1 g2 g3 g4) concatenates_S1024x1024_S1024x1024_S1024x1024_S1024x1024_S1024x1024_S1024x5120_d1 (ix2 k (colG j)) = g4 (ix2 j k) := by
  refine (concatenate_apply_piece 1 (joinedW g0 g1 g2 g3 g4) concatenates_S1024x1024_S1024x1024_S1024x1024_S1024x1024_S1024x1024_S1024x5120_d1 (ix2 k (colG j)) 4 (by show 4 < 5; omega) S1024x1024 _ rfl rfl 4096 rfl (ix2 k j) ?_ rfl).trans ?_
  · intro b hb
    match b with
    | ⟨0, _⟩ => rfl
    | ⟨1, _⟩ => exact absurd rfl hb
  · exact transpose_ix2_apply g4 transposes_S1024x1024_S1024x1024_1_0 k j

/-- Entry `0 + j` of the five bias vectors end to end, laid as one row, is entry `j` of the first. -/
theorem joined_biasI (b0 b1 b2 b3 b4 : FVec Ideal S1024 .f32) (j : Fin 1024) :
    shapeCast S1x5120 (concatenate S5120 0 (joinedB b0 b1 b2 b3 b4) concatenates_S1024_S1024_S1024_S1024_S1024_S5120_d0)
        shapeCasts_S5120_S1x5120 (ix2 (0 : Fin 1) (colI j))
      = b0 (ix1 j) := by
  refine (shapeCast_a_1a_apply _ shapeCasts_S5120_S1x5120 (0 : Fin 1) (colI j)).trans ?_
  refine concatenate_apply_piece 0 (joinedB b0 b1 b2 b3 b4) concatenates_S1024_S1024_S1024_S1024_S1024_S5120_d0 (ix1 (colI j)) 0 (by show 0 < 5; omega) S1024 _ rfl rfl 0 rfl (ix1 j) ?_ rfl
  intro b hb
  match b with
  | ⟨0, _⟩ => exact absurd rfl hb

/-- Entry `1024 + j` of the five bias vectors end to end, laid as one row, is entry `j` of the second. -/
theorem joined_biasF (b0 b1 b2 b3 b4 : FVec Ideal S1024 .f32) (j : Fin 1024) :
    shapeCast S1x5120 (concatenate S5120 0 (joinedB b0 b1 b2 b3 b4) concatenates_S1024_S1024_S1024_S1024_S1024_S5120_d0)
        shapeCasts_S5120_S1x5120 (ix2 (0 : Fin 1) (colF j))
      = b1 (ix1 j) := by
  refine (shapeCast_a_1a_apply _ shapeCasts_S5120_S1x5120 (0 : Fin 1) (colF j)).trans ?_
  refine concatenate_apply_piece 0 (joinedB b0 b1 b2 b3 b4) concatenates_S1024_S1024_S1024_S1024_S1024_S5120_d0 (ix1 (colF j)) 1 (by show 1 < 5; omega) S1024 _ rfl rfl 1024 rfl (ix1 j) ?_ rfl
  intro b hb
  match b with
  | ⟨0, _⟩ => exact absurd rfl hb

/-- Entry `2048 + j` of the five bias vectors end to end, laid as one row, is entry `j` of the third. -/
theorem joined_biasO (b0 b1 b2 b3 b4 : FVec Ideal S1024 .f32) (j : Fin 1024) :
    shapeCast S1x5120 (concatenate S5120 0 (joinedB b0 b1 b2 b3 b4) concatenates_S1024_S1024_S1024_S1024_S1024_S5120_d0)
        shapeCasts_S5120_S1x5120 (ix2 (0 : Fin 1) (colO j))
      = b2 (ix1 j) := by
  refine (shapeCast_a_1a_apply _ shapeCasts_S5120_S1x5120 (0 : Fin 1) (colO j)).trans ?_
  refine concatenate_apply_piece 0 (joinedB b0 b1 b2 b3 b4) concatenates_S1024_S1024_S1024_S1024_S1024_S5120_d0 (ix1 (colO j)) 2 (by show 2 < 5; omega) S1024 _ rfl rfl 2048 rfl (ix1 j) ?_ rfl
  intro b hb
  match b with
  | ⟨0, _⟩ => exact absurd rfl hb

/-- Entry `3072 + j` of the five bias vectors end to end, laid as one row, is entry `j` of the fourth. -/
theorem joined_biasC (b0 b1 b2 b3 b4 : FVec Ideal S1024 .f32) (j : Fin 1024) :
    shapeCast S1x5120 (concatenate S5120 0 (joinedB b0 b1 b2 b3 b4) concatenates_S1024_S1024_S1024_S1024_S1024_S5120_d0)
        shapeCasts_S5120_S1x5120 (ix2 (0 : Fin 1) (colC j))
      = b3 (ix1 j) := by
  refine (shapeCast_a_1a_apply _ shapeCasts_S5120_S1x5120 (0 : Fin 1) (colC j)).trans ?_
  refine concatenate_apply_piece 0 (joinedB b0 b1 b2 b3 b4) concatenates_S1024_S1024_S1024_S1024_S1024_S5120_d0 (ix1 (colC j)) 3 (by show 3 < 5; omega) S1024 _ rfl rfl 3072 rfl (ix1 j) ?_ rfl
  intro b hb
  match b with
  | ⟨0, _⟩ => exact absurd rfl hb

/-- Entry `4096 + j` of the five bias vectors end to end, laid as one row, is entry `j` of the fifth. -/
theorem joined_biasG (b0 b1 b2 b3 b4 : FVec Ideal S1024 .f32) (j : Fin 1024) :
    shapeCast S1x5120 (concatenate S5120 0 (joinedB b0 b1 b2 b3 b4) concatenates_S1024_S1024_S1024_S1024_S1024_S5120_d0)
        shapeCasts_S5120_S1x5120 (ix2 (0 : Fin 1) (colG j))
      = b4 (ix1 j) := by
  refine (shapeCast_a_1a_apply _ shapeCasts_S5120_S1x5120 (0 : Fin 1) (colG j)).trans ?_
  refine concatenate_apply_piece 0 (joinedB b0 b1 b2 b3 b4) concatenates_S1024_S1024_S1024_S1024_S1024_S5120_d0 (ix1 (colG j)) 4 (by show 4 < 5; omega) S1024 _ rfl rfl 4096 rfl (ix1 j) ?_ rfl
  intro b hb
  match b with
  | ⟨0, _⟩ => exact absurd rfl hb

/-! ## The windows' positions over the grid -/

/-- Decided over the 128 points: a batch window (and each result's) sits at block row `t`, block column 0; the
    weights' and the bias's windows never move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The fused `W` window's block at any point is the whole fused matrix. -/
theorem iblk3_apply (c : Dev nD) (t : Fin cfg0.N) (k : Fin 1024) (cc : Fin 5120) :
    iblk m c 3 t (ix2 k cc) = V m c main_v10 (ix2 k cc) := by
  obtain ⟨-, -, -, -, -, -, e0, e1, -⟩ := idx_facts t
  show V m c main_v10 (((cfg0.win 3).blk t).view.emb (ix2 k cc)) = V m c main_v10 (ix2 k cc)
  refine congrArg (V m c main_v10) (funext fun a => Fin.ext ?_)
  match a with
  | ⟨0, _⟩ => show win0_3.index t (0 : Fin 2) * 1024 + 1 * k.val = k.val; omega
  | ⟨1, _⟩ => show win0_3.index t (1 : Fin 2) * 5120 + 1 * cc.val = cc.val; omega

/-- The fused `U` window's block at any point is the whole fused matrix. -/
theorem iblk4_apply (c : Dev nD) (t : Fin cfg0.N) (k : Fin 1024) (cc : Fin 5120) :
    iblk m c 4 t (ix2 k cc) = V m c main_v21 (ix2 k cc) := by
  obtain ⟨-, -, -, -, -, -, -, -, e0, e1, -⟩ := idx_facts t
  show V m c main_v21 (((cfg0.win 4).blk t).view.emb (ix2 k cc)) = V m c main_v21 (ix2 k cc)
  refine congrArg (V m c main_v21) (funext fun a => Fin.ext ?_)
  match a with
  | ⟨0, _⟩ => show win0_4.index t (0 : Fin 2) * 1024 + 1 * k.val = k.val; omega
  | ⟨1, _⟩ => show win0_4.index t (1 : Fin 2) * 5120 + 1 * cc.val = cc.val; omega

/-- The bias window's block at any point is the whole bias row. -/
theorem iblk5_apply (c : Dev nD) (t : Fin cfg0.N) (u : Fin 1) (cc : Fin 5120) :
    iblk m c 5 t (ix2 u cc) = V m c main_v23 (ix2 u cc) := by
  obtain ⟨-, -, -, -, -, -, -, -, -, -, e0, e1, -⟩ := idx_facts t
  show V m c main_v23 (((cfg0.win 5).blk t).view.emb (ix2 u cc)) = V m c main_v23 (ix2 u cc)
  refine congrArg (V m c main_v23) (funext fun a => Fin.ext ?_)
  match a with
  | ⟨0, _⟩ => show win0_5.index t (0 : Fin 2) * 1 + 1 * u.val = u.val; omega
  | ⟨1, _⟩ => show win0_5.index t (1 : Fin 2) * 5120 + 1 * cc.val = cc.val; omega

/-! ## So every point's body loads the parameters, fused -/

/-- The parameters on core `c`: the fifteen weight and bias arguments as launched. -/
def params (c : Dev nD) : Params :=
  paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- At every point the three fused blocks hold the parameters. -/
theorem fused (c : Dev nD) (t : Fin cfg0.N) : FusedAs (params m c) (iblk m c 3 t) (iblk m c 4 t) (iblk m c 5 t) where
  Wi := fun j k => (iblk3_apply m c t k (colI j)).trans ((congrFun (fusedW_eq m c) (ix2 k (colI j))).trans (joined_colI _ _ _ _ _ k j))
  Wf := fun j k => (iblk3_apply m c t k (colF j)).trans ((congrFun (fusedW_eq m c) (ix2 k (colF j))).trans (joined_colF _ _ _ _ _ k j))
  Wo := fun j k => (iblk3_apply m c t k (colO j)).trans ((congrFun (fusedW_eq m c) (ix2 k (colO j))).trans (joined_colO _ _ _ _ _ k j))
  Wc := fun j k => (iblk3_apply m c t k (colC j)).trans ((congrFun (fusedW_eq m c) (ix2 k (colC j))).trans (joined_colC _ _ _ _ _ k j))
  Wg := fun j k => (iblk3_apply m c t k (colG j)).trans ((congrFun (fusedW_eq m c) (ix2 k (colG j))).trans (joined_colG _ _ _ _ _ k j))
  Ui := fun j k => (iblk4_apply m c t k (colI j)).trans ((congrFun (fusedU_eq m c) (ix2 k (colI j))).trans (joined_colI _ _ _ _ _ k j))
  Uf := fun j k => (iblk4_apply m c t k (colF j)).trans ((congrFun (fusedU_eq m c) (ix2 k (colF j))).trans (joined_colF _ _ _ _ _ k j))
  Uo := fun j k => (iblk4_apply m c t k (colO j)).trans ((congrFun (fusedU_eq m c) (ix2 k (colO j))).trans (joined_colO _ _ _ _ _ k j))
  Uc := fun j k => (iblk4_apply m c t k (colC j)).trans ((congrFun (fusedU_eq m c) (ix2 k (colC j))).trans (joined_colC _ _ _ _ _ k j))
  Ug := fun j k => (iblk4_apply m c t k (colG j)).trans ((congrFun (fusedU_eq m c) (ix2 k (colG j))).trans (joined_colG _ _ _ _ _ k j))
  bi := fun j => (iblk5_apply m c t (0 : Fin 1) (colI j)).trans ((congrFun (fusedB_eq m c) (ix2 (0 : Fin 1) (colI j))).trans (joined_biasI _ _ _ _ _ j))
  bf := fun j => (iblk5_apply m c t (0 : Fin 1) (colF j)).trans ((congrFun (fusedB_eq m c) (ix2 (0 : Fin 1) (colF j))).trans (joined_biasF _ _ _ _ _ j))
  bo := fun j => (iblk5_apply m c t (0 : Fin 1) (colO j)).trans ((congrFun (fusedB_eq m c) (ix2 (0 : Fin 1) (colO j))).trans (joined_biasO _ _ _ _ _ j))
  bc := fun j => (iblk5_apply m c t (0 : Fin 1) (colC j)).trans ((congrFun (fusedB_eq m c) (ix2 (0 : Fin 1) (colC j))).trans (joined_biasC _ _ _ _ _ j))
  bg := fun j => (iblk5_apply m c t (0 : Fin 1) (colG j)).trans ((congrFun (fusedB_eq m c) (ix2 (0 : Fin 1) (colG j))).trans (joined_biasG _ _ _ _ _ j))

end Cert.KernelIdeal.Fused

end
-- ==== Proof.IdealArrays.lean ====
import proofs.«105872_j31061203485011_2_alg».proof.Proof.IdealFused
import Idealize.ShloMosaic.Lib.Pipeline.Value

/-!
# The two result arrays after the run

Point `t` writes back rows `128 t … 128 t + 127` of each result, and what it writes is the cell computed on rows
`128 t … 128 t + 127` of the three batch arguments with the launched parameters: local row `p` of a batch tile is row
`128 t + p` of the argument (no host line writes a batch argument), and the fused blocks hold the parameters at every
point. The 128 blocks tile the `16384` rows — row `r` is in block `r / 128` — so each result array ends as ONE function
of the arguments: the row description of the cell applied row by row.
-/

set_option maxRecDepth 16384

noncomputable section

namespace Cert.KernelIdeal.Arrays

open Cert.KernelIdeal Cert.KernelIdeal.Gen Cert.KernelIdeal.Launched Cert.KernelIdeal.BodyRows Cert.KernelIdeal.Fused Cert.CellSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The array row under local row `p` of a tile at point `t`. -/
def rowAt (t : Fin cfg0.N) (p : Fin 128) : Fin 16384 :=
  ⟨t.val * 128 + 1 * p.val, by
    have ht : t.val < 128 := lt_of_lt_of_eq t.isLt N_0
    have := p.isLt
    omega⟩

/-- Row `p` of window 0's tile at point `t` is row `128 t + p` of argument 0. -/
theorem tile_row0 (c : Dev nD) (t : Fin cfg0.N) (p : Fin 128) :
    rowT (iblk m c 0 t) p = rowOf (m ((c : Thread nD τ).loc main_arg0)) (rowAt t p) := by
  obtain ⟨e0, e1, -⟩ := idx_facts t
  funext k
  show V m c main_arg0 (((cfg0.win 0).blk t).view.emb (ix2 p k)) = (m ((c : Thread nD τ).loc main_arg0)) (ix2 (rowAt t p) k)
  rw [V_main_arg0]
  refine congrArg (m ((c : Thread nD τ).loc main_arg0)) (funext fun a => Fin.ext ?_)
  match a with
  | ⟨0, _⟩ => show win0_0.index t (0 : Fin 2) * 128 + 1 * p.val = t.val * 128 + 1 * p.val; rw [e0]
  | ⟨1, _⟩ => show win0_0.index t (1 : Fin 2) * 1024 + 1 * k.val = k.val; omega

/-- Row `p` of window 1's tile at point `t` is row `128 t + p` of argument 1. -/
theorem tile_row1 (c : Dev nD) (t : Fin cfg0.N) (p : Fin 128) :
    rowT (iblk m c 1 t) p = rowOf (m ((c : Thread nD τ).loc main_arg1)) (rowAt t p) := by
  obtain ⟨-, -, e0, e1, -⟩ := idx_facts t
  funext k
  show V m c main_arg1 (((cfg0.win 1).blk t).view.emb (ix2 p k)) = (m ((c : Thread nD τ).loc main_arg1)) (ix2 (rowAt t p) k)
  rw [V_main_arg1]
  refine congrArg (m ((c : Thread nD τ).loc main_arg1)) (funext fun a => Fin.ext ?_)
  match a with
  | ⟨0, _⟩ => show win0_1.index t (0 : Fin 2) * 128 + 1 * p.val = t.val * 128 + 1 * p.val; rw [e0]
  | ⟨1, _⟩ => show win0_1.index t (1 : Fin 2) * 1024 + 1 * k.val = k.val; omega

/-- Row `p` of window 2's tile at point `t` is row `128 t + p` of argument 2. -/
theorem tile_row2 (c : Dev nD) (t : Fin cfg0.N) (p : Fin 128) :
    rowT (iblk m c 2 t) p = rowOf (m ((c : Thread nD τ).loc main_arg2)) (rowAt t p) := by
  obtain ⟨-, -, -, -, e0, e1, -⟩ := idx_facts t
  funext k
  show V m c main_arg2 (((cfg0.win 2).blk t).view.emb (ix2 p k)) = (m ((c : Thread nD τ).loc main_arg2)) (ix2 (rowAt t p) k)
  rw [V_main_arg2]
  refine congrArg (m ((c : Thread nD τ).loc main_arg2)) (funext fun a => Fin.ext ?_)
  match a with
  | ⟨0, _⟩ => show win0_2.index t (0 : Fin 2) * 128 + 1 * p.val = t.val * 128 + 1 * p.val; rw [e0]
  | ⟨1, _⟩ => show win0_2.index t (1 : Fin 2) * 1024 + 1 * k.val = k.val; omega

/-! ## The new hidden state (window 6) -/

/-- The block's position: local `(p, q)` of result window 6 at point `t` is `(128 t + p, q)` of the array. -/
theorem emb6 (t : Fin cfg0.N) (p : Fin 128) (q : Fin 1024) :
    ((cfg0.win 6).blk t).view.emb (ix2 p q) = ix2 (rowAt t p) q := by
  obtain ⟨-, -, -, -, -, -, -, -, -, -, -, -, e0, e1, -⟩ := idx_facts t
  refine funext fun a => Fin.ext ?_
  match a with
  | ⟨0, _⟩ => show win0_6.index t (0 : Fin 2) * 128 + 1 * p.val = t.val * 128 + 1 * p.val; rw [e0]
  | ⟨1, _⟩ => show win0_6.index t (1 : Fin 2) * 1024 + 1 * q.val = q.val; omega

/-- What point `t` writes back to the new hidden state is block `t` of the new hidden state array of the arguments. -/
theorem flushed6_eq (c : Dev nD) (t : Fin cfg0.N) :
    (dats m 0 c).flushed 6 t = ((cfg0.win 6).blk t).view.read (Elt Ideal) (hiddenArr (params m c) (m ((c : Thread nD τ).loc main_arg0)) (m ((c : Thread nD τ).loc main_arg1)) (m ((c : Thread nD τ).loc main_arg2))) := by
  show (cfg0.win 6).cut (grid0.coords t) ((dats m 0 c).after 6 t) = _
  rw [after6]
  unfold outHidden
  rw [View.canon_unit_zero hz]
  simp only [View.ld_unit_zero (S := S128x1024) hz, View.ld_unit_zero (S := S1024x5120) hz, View.ld_unit_zero (S := S1x5120) hz]
  funext y
  obtain ⟨p, q, rfl⟩ : ∃ (p : Fin 128) (q : Fin 1024), y = ix2 p q := ⟨y 0, y 1, eq_ix2 y⟩
  show k0_pay3 (F := Ideal) (iblk m c 0 t) (iblk m c 1 t) (iblk m c 2 t) (iblk m c 3 t) (iblk m c 4 t) (iblk m c 5 t) (ix2 p q)
    = hiddenArr (params m c) (m ((c : Thread nD τ).loc main_arg0)) (m ((c : Thread nD τ).loc main_arg1)) (m ((c : Thread nD τ).loc main_arg2)) (((cfg0.win 6).blk t).view.emb (ix2 p q))
  rw [emb6]
  refine (hidden_at (params m c) (iblk m c 0 t) (iblk m c 1 t) (iblk m c 2 t) (iblk m c 3 t) (iblk m c 4 t) (iblk m c 5 t) (fused m c t) p q).trans ?_
  rw [tile_row0, tile_row1, tile_row2]
  rfl

/-- An index of the new hidden state array is in point `t`'s block iff each coordinate is in the block's range. -/
theorem mem_blk6 (t : Fin cfg0.N) (i : S16384x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v24_0).slice (win0_6.rect t)).set ↔ _
  rw [View.set_slice_whole, Rect.mem_set_unit]
  exact Iff.rfl

/-- Every index of the new hidden state array is in some point's block: row `r` is in point `r / 128`'s. -/
theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hlt : (i 0).val / 128 < grid0.N := lt_of_lt_of_eq (by omega : (i 0).val / 128 < 128) N_0.symm
  obtain ⟨-, -, -, -, -, -, -, -, -, -, -, -, e0, e1, -⟩ := idx_facts ⟨(i 0).val / 128, hlt⟩
  refine ⟨⟨(i 0).val / 128, hlt⟩, flush0_6 _, ?_⟩
  rw [mem_blk6]
  intro a
  match a with
  | ⟨0, _⟩ =>
    show win0_6.index ⟨(i 0).val / 128, hlt⟩ (0 : Fin 2) * 128 ≤ (i 0).val ∧ (i 0).val < win0_6.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win0_6.index ⟨(i 0).val / 128, hlt⟩ (1 : Fin 2) * 1024 ≤ (i 1).val ∧ (i 1).val < win0_6.index ⟨(i 0).val / 128, hlt⟩ (1 : Fin 2) * 1024 + 1024
    omega

/-- The new hidden state array after the run. -/
theorem final6 (c : Dev nD) :
    (dats m 0 c).arrAt 6 cfg0.N = hiddenArr (params m c) (m ((c : Thread nD τ).loc main_arg0)) (m ((c : Thread nD τ).loc main_arg1)) (m ((c : Thread nD τ).loc main_arg2)) :=
  (dats m 0 c).arrAt_eq_of_cover 6 _ (fun t _ => flushed6_eq m c t) cover6

/-! ## The new cell state (window 7) -/

/-- The block's position: local `(p, q)` of result window 7 at point `t` is `(128 t + p, q)` of the array. -/
theorem emb7 (t : Fin cfg0.N) (p : Fin 128) (q : Fin 1024) :
    ((cfg0.win 7).blk t).view.emb (ix2 p q) = ix2 (rowAt t p) q := by
  obtain ⟨-, -, -, -, -, -, -, -, -, -, -, -, -, -, e0, e1⟩ := idx_facts t
  refine funext fun a => Fin.ext ?_
  match a with
  | ⟨0, _⟩ => show win0_7.index t (0 : Fin 2) * 128 + 1 * p.val = t.val * 128 + 1 * p.val; rw [e0]
  | ⟨1, _⟩ => show win0_7.index t (1 : Fin 2) * 1024 + 1 * q.val = q.val; omega

/-- What point `t` writes back to the new cell state is block `t` of the new cell state array of the arguments. -/
theorem flushed7_eq (c : Dev nD) (t : Fin cfg0.N) :
    (dats m 0 c).flushed 7 t = ((cfg0.win 7).blk t).view.read (Elt Ideal) (cellArr (params m c) (m ((c : Thread nD τ).loc main_arg0)) (m ((c : Thread nD τ).loc main_arg1)) (m ((c : Thread nD τ).loc main_arg2))) := by
  show (cfg0.win 7).cut (grid0.coords t) ((dats m 0 c).after 7 t) = _
  rw [after7]
  unfold outCell
  rw [View.canon_unit_zero hz]
  simp only [View.ld_unit_zero (S := S128x1024) hz, View.ld_unit_zero (S := S1024x5120) hz, View.ld_unit_zero (S := S1x5120) hz]
  funext y
  obtain ⟨p, q, rfl⟩ : ∃ (p : Fin 128) (q : Fin 1024), y = ix2 p q := ⟨y 0, y 1, eq_ix2 y⟩
  show k0_pay2 (F := Ideal) (iblk m c 0 t) (iblk m c 1 t) (iblk m c 2 t) (iblk m c 3 t) (iblk m c 4 t) (iblk m c 5 t) (ix2 p q)
    = cellArr (params m c) (m ((c : Thread nD τ).loc main_arg0)) (m ((c : Thread nD τ).loc main_arg1)) (m ((c : Thread nD τ).loc main_arg2)) (((cfg0.win 7).blk t).view.emb (ix2 p q))
  rw [emb7]
  refine (cell_at (params m c) (iblk m c 0 t) (iblk m c 1 t) (iblk m c 2 t) (iblk m c 3 t) (iblk m c 4 t) (iblk m c 5 t) (fused m c t) p q).trans ?_
  rw [tile_row0, tile_row1, tile_row2]
  rfl

/-- An index of the new cell state array is in point `t`'s block iff each coordinate is in the block's range. -/
theorem mem_blk7 (t : Fin cfg0.N) (i : S16384x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v24_1).slice (win0_7.rect t)).set ↔ _
  rw [View.set_slice_whole, Rect.mem_set_unit]
  exact Iff.rfl

/-- Every index of the new cell state array is in some point's block: row `r` is in point `r / 128`'s. -/
theorem cover7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  have hlt : (i 0).val / 128 < grid0.N := lt_of_lt_of_eq (by omega : (i 0).val / 128 < 128) N_0.symm
  obtain ⟨-, -, -, -, -, -, -, -, -, -, -, -, -, -, e0, e1⟩ := idx_facts ⟨(i 0).val / 128, hlt⟩
  refine ⟨⟨(i 0).val / 128, hlt⟩, flush0_7 _, ?_⟩
  rw [mem_blk7]
  intro a
  match a with
  | ⟨0, _⟩ =>
    show win0_7.index ⟨(i 0).val / 128, hlt⟩ (0 : Fin 2) * 128 ≤ (i 0).val ∧ (i 0).val < win0_7.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win0_7.index ⟨(i 0).val / 128, hlt⟩ (1 : Fin 2) * 1024 ≤ (i 1).val ∧ (i 1).val < win0_7.index ⟨(i 0).val / 128, hlt⟩ (1 : Fin 2) * 1024 + 1024
    omega

/-- The new cell state array after the run. -/
theorem final7 (c : Dev nD) :
    (dats m 0 c).arrAt 7 cfg0.N = cellArr (params m c) (m ((c : Thread nD τ).loc main_arg0)) (m ((c : Thread nD τ).loc main_arg1)) (m ((c : Thread nD τ).loc main_arg2)) :=
  (dats m 0 c).arrAt_eq_of_cover 7 _ (fun t _ => flushed7_eq m c t) cover7

/-! ## The run, read -/

/-- Every weakly fair execution of the entry point terminates without a fault with the first result at the new
    hidden state of the arguments, the second at the new cell state, and the arguments unchanged. -/
theorem run : θ_run defs (onTc (τ := τ) (main (F := Ideal))) ⟨m, fun _ => 0, ρ⟩ (fun r => ∀ c : Dev nD,
      r.2.mem ((c.tc : Thread nD τ).loc main_v24_0) = hiddenArr (params m c) (m ((c : Thread nD τ).loc main_arg0)) (m ((c : Thread nD τ).loc main_arg1)) (m ((c : Thread nD τ).loc main_arg2))
      ∧ r.2.mem ((c.tc : Thread nD τ).loc main_v24_1) = cellArr (params m c) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c).1.trans (final6 m c), (h c).2.1.trans (final7 m c), (h c).2.2⟩) (run_named m ρ)

end Cert.KernelIdeal.Arrays

end
-- ==== Proof.RefRows.lean ====
import proofs.«105872_j31061203485011_2_alg».proof.Proof.Gen.ReferenceIdeal.Read
import proofs.«105872_j31061203485011_2_alg».proof.Proof.CellSpec

/-!
# The reference computes the cell row by row

The reference is written with whole-array operations: for each gate a product of the data with a transposed weight
matrix, the bias broadcast over the rows, a product of the previous hidden state with another transposed matrix; the
logistic function spelled out; row sums with the result broadcast back along the row. Read at row `r` and column `j`,
each of these is the corresponding piece of the row-by-row description: a product with a transposed matrix is
`Σₖ d (r, k) · W (j, k)`, a broadcast bias is `b j`, a row sum broadcast back is one number for the row.
-/

noncomputable section

namespace Cert.ReferenceIdeal.RowForm

open Cert.ReferenceIdeal Cert.ReferenceIdeal.Read Cert.CellSpec Idealize.ShloMosaic Idealize.ShloMosaic.ValueIdx
open Idealize.ShloMosaic.TcCoe Idealize.SL.Sem

/-- Two indices of a two-axis array with the same coordinates are equal; likewise for one axis. -/
local macro "fin2" : tactic => `(tactic| exact funext fun a => Fin.ext (by match a with | ⟨0, _⟩ => rfl | ⟨1, _⟩ => rfl))
local macro "fin1" : tactic => `(tactic| exact funext fun a => Fin.ext (by match a with | ⟨0, _⟩ => rfl))

/-- The input gate's pre-activation as the reference computes it, at row `r` and column `j`. -/
theorem pre_i (x0 x1 : (⟨S16384x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (r : Fin 16384) (j : Fin 1024) :
    val_main_v7 (F := Ideal) x0 x1 x3 x4 x5 (ix2 r j) = pre (rowOf x0 r) (rowOf x1 r) (matOf x3) (vecOf x4) (matOf x5) j := by
  rw [val_main_v7_apply, val_main_v4_apply, val_main_v1_apply, val_main_v3_apply, val_main_v2_apply, val_main_v6_apply]
  simp only [val_main_v0_apply, val_main_v5_apply]
  have e1 : ∀ k, lidx_main_v1 (ix2 r j) k = ix2 r k := fun k => by fin2
  have e2 : ∀ k, idx_main_v0 (ridx_main_v1 (ix2 r j) k) = ix2 j k := fun k => by fin2
  have e3 : idx_main_v2 (idx_main_v3 (ix2 r j)) = ix1 j := by fin1
  have e4 : ∀ k, lidx_main_v6 (ix2 r j) k = ix2 r k := fun k => by fin2
  have e5 : ∀ k, idx_main_v5 (ridx_main_v6 (ix2 r j) k) = ix2 j k := fun k => by fin2
  simp only [e1, e2, e3, e4, e5]
  rfl

/-- … and its logistic, which the reference spells with a negation, an exponential, a sum with one and a quotient. -/
theorem sig_i (x0 x1 : (⟨S16384x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (r : Fin 16384) (j : Fin 1024) :
    val_main_v13 (F := Ideal) x0 x1 x3 x4 x5 (ix2 r j)
      = Ideal.logistic (pre (rowOf x0 r) (rowOf x1 r) (matOf x3) (vecOf x4) (matOf x5) j) := by
  rw [val_main_v13_apply, val_main_v12_apply, val_main_cst_0_apply, val_main_v11_apply, val_main_v10_apply,
    val_main_cst_apply, val_main_v9_apply, val_main_v8_apply, pre_i]
  exact logistic_spelled _

/-- The forget gate's pre-activation as the reference computes it, at row `r` and column `j`. -/
theorem pre_f (x0 x1 : (⟨S16384x1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (r : Fin 16384) (j : Fin 1024) :
    val_main_v21 (F := Ideal) x0 x1 x6 x7 x8 (ix2 r j) = pre (rowOf x0 r) (rowOf x1 r) (matOf x6) (vecOf x7) (matOf x8) j := by
  rw [val_main_v21_apply, val_main_v18_apply, val_main_v15_apply, val_main_v17_apply, val_main_v16_apply, val_main_v20_apply]
  simp only [val_main_v14_apply, val_main_v19_apply]
  have e1 : ∀ k, lidx_main_v15 (ix2 r j) k = ix2 r k := fun k => by fin2
  have e2 : ∀ k, idx_main_v14 (ridx_main_v15 (ix2 r j) k) = ix2 j k := fun k => by fin2
  have e3 : idx_main_v16 (idx_main_v17 (ix2 r j)) = ix1 j := by fin1
  have e4 : ∀ k, lidx_main_v20 (ix2 r j) k = ix2 r k := fun k => by fin2
  have e5 : ∀ k, idx_main_v19 (ridx_main_v20 (ix2 r j) k) = ix2 j k := fun k => by fin2
  simp only [e1, e2, e3, e4, e5]
  rfl

/-- … and its logistic, which the reference spells with a negation, an exponential, a sum with one and a quotient. -/
theorem sig_f (x0 x1 : (⟨S16384x1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (r : Fin 16384) (j : Fin 1024) :
    val_main_v27 (F := Ideal) x0 x1 x6 x7 x8 (ix2 r j)
      = Ideal.logistic (pre (rowOf x0 r) (rowOf x1 r) (matOf x6) (vecOf x7) (matOf x8) j) := by
  rw [val_main_v27_apply, val_main_v26_apply, val_main_cst_2_apply, val_main_v25_apply, val_main_v24_apply,
    val_main_cst_1_apply, val_main_v23_apply, val_main_v22_apply, pre_f]
  exact logistic_spelled _

/-- The output gate's pre-activation as the reference computes it, at row `r` and column `j`. -/
theorem pre_o (x0 x1 : (⟨S16384x1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (r : Fin 16384) (j : Fin 1024) :
    val_main_v35 (F := Ideal) x0 x1 x9 x10 x11 (ix2 r j) = pre (rowOf x0 r) (rowOf x1 r) (matOf x9) (vecOf x10) (matOf x11) j := by
  rw [val_main_v35_apply, val_main_v32_apply, val_main_v29_apply, val_main_v31_apply, val_main_v30_apply, val_main_v34_apply]
  simp only [val_main_v28_apply, val_main_v33_apply]
  have e1 : ∀ k, lidx_main_v29 (ix2 r j) k = ix2 r k := fun k => by fin2
  have e2 : ∀ k, idx_main_v28 (ridx_main_v29 (ix2 r j) k) = ix2 j k := fun k => by fin2
  have e3 : idx_main_v30 (idx_main_v31 (ix2 r j)) = ix1 j := by fin1
  have e4 : ∀ k, lidx_main_v34 (ix2 r j) k = ix2 r k := fun k => by fin2
  have e5 : ∀ k, idx_main_v33 (ridx_main_v34 (ix2 r j) k) = ix2 j k := fun k => by fin2
  simp only [e1, e2, e3, e4, e5]
  rfl

/-- … and its logistic, which the reference spells with a negation, an exponential, a sum with one and a quotient. -/
theorem sig_o (x0 x1 : (⟨S16384x1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (r : Fin 16384) (j : Fin 1024) :
    val_main_v41 (F := Ideal) x0 x1 x9 x10 x11 (ix2 r j)
      = Ideal.logistic (pre (rowOf x0 r) (rowOf x1 r) (matOf x9) (vecOf x10) (matOf x11) j) := by
  rw [val_main_v41_apply, val_main_v40_apply, val_main_cst_4_apply, val_main_v39_apply, val_main_v38_apply,
    val_main_cst_3_apply, val_main_v37_apply, val_main_v36_apply, pre_o]
  exact logistic_spelled _

/-- The candidate gate's pre-activation as the reference computes it, at row `r` and column `j`. -/
theorem pre_c (x0 x1 : (⟨S16384x1024, .f32⟩ : BufTy).Contents (Elt Ideal)) (x12 : (⟨S1024x1024, .f32⟩ : BufTy).Contents (Elt Ideal)) (x13 : (⟨S1024, .f32⟩ : BufTy).Contents (Elt Ideal)) (x14 : (⟨S1024x1024, .f32⟩ : BufTy).Contents (Elt Ideal)) (r : Fin 16384) (j : Fin 1024) :
    val_main_v49 (F := Ideal) x0 x1 x12 x13 x14 (ix2 r j) = pre (rowOf x0 r) (rowOf x1 r) (matOf x12) (vecOf x13) (matOf x14) j := by
  rw [val_main_v49_apply, val_main_v46_apply, val_main_v43_apply, val_main_v45_apply, val_main_v44_apply, val_main_v48_apply]
  simp only [val_main_v42_apply, val_main_v47_apply]
  have e1 : ∀ k, lidx_main_v43 (ix2 r j) k = ix2 r k := fun k => by fin2
  have e2 : ∀ k, idx_main_v42 (ridx_main_v43 (ix2 r j) k) = ix2 j k := fun k => by fin2
  have e3 : idx_main_v44 (idx_main_v45 (ix2 r j)) = ix1 j := by fin1
  have e4 : ∀ k, lidx_main_v48 (ix2 r j) k = ix2 r k := fun k => by fin2
  have e5 : ∀ k, idx_main_v47 (ridx_main_v48 (ix2 r j) k) = ix2 j k := fun k => by fin2
  simp only [e1, e2, e3, e4, e5]
  rfl

/-- The correction gate's pre-activation as the reference computes it, at row `r` and column `j`. -/
theorem pre_g (x0 x1 : (⟨S16384x1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (r : Fin 16384) (j : Fin 1024) :
    val_main_v58 (F := Ideal) x0 x1 x15 x16 x17 (ix2 r j) = pre (rowOf x0 r) (rowOf x1 r) (matOf x15) (vecOf x16) (matOf x17) j := by
  rw [val_main_v58_apply, val_main_v55_apply, val_main_v52_apply, val_main_v54_apply, val_main_v53_apply, val_main_v57_apply]
  simp only [val_main_v51_apply, val_main_v56_apply]
  have e1 : ∀ k, lidx_main_v52 (ix2 r j) k = ix2 r k := fun k => by fin2
  have e2 : ∀ k, idx_main_v51 (ridx_main_v52 (ix2 r j) k) = ix2 j k := fun k => by fin2
  have e3 : idx_main_v53 (idx_main_v54 (ix2 r j)) = ix1 j := by fin1
  have e4 : ∀ k, lidx_main_v57 (ix2 r j) k = ix2 r k := fun k => by fin2
  have e5 : ∀ k, idx_main_v56 (ridx_main_v57 (ix2 r j) k) = ix2 j k := fun k => by fin2
  simp only [e1, e2, e3, e4, e5]
  rfl

/-- … and its logistic, which the reference spells with a negation, an exponential, a sum with one and a quotient. -/
theorem sig_g (x0 x1 : (⟨S16384x1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (r : Fin 16384) (j : Fin 1024) :
    val_main_v64 (F := Ideal) x0 x1 x15 x16 x17 (ix2 r j)
      = Ideal.logistic (pre (rowOf x0 r) (rowOf x1 r) (matOf x15) (vecOf x16) (matOf x17) j) := by
  rw [val_main_v64_apply, val_main_v63_apply, val_main_cst_6_apply, val_main_v62_apply, val_main_v61_apply,
    val_main_cst_5_apply, val_main_v60_apply, val_main_v59_apply, pre_g]
  exact logistic_spelled _

/-- The reference's new cell state at `(r, j)` is the row description's. -/
theorem cell_ref (x0 x1 x2 : (⟨S16384x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 x15 : (⟨S1024x1024, .f32⟩ : BufTy).Contents (Elt Ideal)) (x16 : (⟨S1024, .f32⟩ : BufTy).Contents (Elt Ideal)) (x17 : (⟨S1024x1024, .f32⟩ : BufTy).Contents (Elt Ideal)) (r : Fin 16384) (j : Fin 1024) :
    val_main_v67 (F := Ideal) x0 x1 x2 x3 x4 x5 x6 x7 x8 x12 x13 x14 (ix2 r j)
      = cellRow (paramsOf x3 x4 x5 x6 x7 x8 x9 x10 x11 x12 x13 x14 x15 x16 x17) (rowOf x0 r) (rowOf x1 r) (rowOf x2 r) j := by
  rw [val_main_v67_apply, val_main_v65_apply, val_main_v66_apply, val_main_v50_apply, sig_i, sig_f, pre_c]
  rfl

/-- The reference's correction factor, broadcast back along row `r`, is the row description's one number. -/
theorem factor_ref (x0 x1 x2 : (⟨S16384x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 x15 : (⟨S1024x1024, .f32⟩ : BufTy).Contents (Elt Ideal)) (x16 : (⟨S1024, .f32⟩ : BufTy).Contents (Elt Ideal)) (x17 : (⟨S1024x1024, .f32⟩ : BufTy).Contents (Elt Ideal)) (r : Fin 16384) (j : Fin 1024) :
    val_main_v75 (F := Ideal) x0 x1 x2 x3 x4 x5 x6 x7 x8 x12 x13 x14 (ix2 r j)
      = factor (paramsOf x3 x4 x5 x6 x7 x8 x9 x10 x11 x12 x13 x14 x15 x16 x17) (rowOf x0 r) (rowOf x1 r) (rowOf x2 r) := by
  rw [val_main_v75_apply, val_main_v74_apply, val_main_v70_apply, val_main_v69_apply, val_main_v73_apply, val_main_v72_apply,
    val_main_cst_7_apply, val_main_cst_8_apply]
  have e1 : ∀ k, idx_main_v69 (idx_main_v70 (idx_main_v75 (ix2 r j))) k = ix2 r k := fun k => by fin2
  have e2 : ∀ k, idx_main_v72 (idx_main_v73 (idx_main_v75 (ix2 r j))) k = ix2 r k := fun k => by fin2
  simp only [e1, e2, val_main_v68_apply, val_main_v71_apply, cell_ref x0 x1 x2 x3 x4 x5 x6 x7 x8 x9 x10 x11 x12 x13 x14 x15 x16 x17]
  show Ideal.div (Ideal.ofBits .f32 0x00000000#32 + _) (Ideal.ofBits .f32 0x00000000#32 + _) = _
  rw [Ideal.ofBits_zero_f32, zero_add, zero_add]
  rfl

/-- The reference's new hidden state at `(r, j)` is the row description's. -/
theorem hidden_ref (x0 x1 x2 : (⟨S16384x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 x15 : (⟨S1024x1024, .f32⟩ : BufTy).Contents (Elt Ideal)) (x16 : (⟨S1024, .f32⟩ : BufTy).Contents (Elt Ideal)) (x17 : (⟨S1024x1024, .f32⟩ : BufTy).Contents (Elt Ideal)) (r : Fin 16384) (j : Fin 1024) :
    val_main_v80 (F := Ideal) x0 x1 x2 x3 x4 x5 x6 x7 x8 x9 x10 x11 x12 x13 x14 x15 x16 x17 (ix2 r j)
      = hiddenRow (paramsOf x3 x4 x5 x6 x7 x8 x9 x10 x11 x12 x13 x14 x15 x16 x17) (rowOf x0 r) (rowOf x1 r) (rowOf x2 r) j := by
  rw [val_main_v80_apply, val_main_v79_apply, val_main_v78_apply, val_main_v77_apply, val_main_v76_apply, sig_o, sig_g,
    cell_ref x0 x1 x2 x3 x4 x5 x6 x7 x8 x9 x10 x11 x12 x13 x14 x15 x16 x17,
    factor_ref x0 x1 x2 x3 x4 x5 x6 x7 x8 x9 x10 x11 x12 x13 x14 x15 x16 x17]
  rfl

/-- The reference's second result, the new cell state, as one array. -/
theorem cell_arr (x0 x1 x2 : (⟨S16384x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 x15 : (⟨S1024x1024, .f32⟩ : BufTy).Contents (Elt Ideal)) (x16 : (⟨S1024, .f32⟩ : BufTy).Contents (Elt Ideal)) (x17 : (⟨S1024x1024, .f32⟩ : BufTy).Contents (Elt Ideal)) :
    val_main_v67 (F := Ideal) x0 x1 x2 x3 x4 x5 x6 x7 x8 x12 x13 x14
      = cellArr (paramsOf x3 x4 x5 x6 x7 x8 x9 x10 x11 x12 x13 x14 x15 x16 x17) x0 x1 x2 := by
  funext i
  rw [eq_ix2 i]
  exact cell_ref x0 x1 x2 x3 x4 x5 x6 x7 x8 x9 x10 x11 x12 x13 x14 x15 x16 x17 (i 0) (i 1)

/-- The reference's first result, the new hidden state, as one array. -/
theorem hidden_arr (x0 x1 x2 : (⟨S16384x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 x15 : (⟨S1024x1024, .f32⟩ : BufTy).Contents (Elt Ideal)) (x16 : (⟨S1024, .f32⟩ : BufTy).Contents (Elt Ideal)) (x17 : (⟨S1024x1024, .f32⟩ : BufTy).Contents (Elt Ideal)) :
    val_main_v80 (F := Ideal) x0 x1 x2 x3 x4 x5 x6 x7 x8 x9 x10 x11 x12 x13 x14 x15 x16 x17
      = hiddenArr (paramsOf x3 x4 x5 x6 x7 x8 x9 x10 x11 x12 x13 x14 x15 x16 x17) x0 x1 x2 := by
  funext i
  rw [eq_ix2 i]
  exact hidden_ref x0 x1 x2 x3 x4 x5 x6 x7 x8 x9 x10 x11 x12 x13 x14 x15 x16 x17 (i 0) (i 1)

/-- The reference's run with its two results read as the row-by-row description of its arguments: every weakly fair
    execution terminates without a fault, the first result at the new hidden state, the second at the new cell state,
    the arguments unchanged. -/
theorem run_rows (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v80)
        = hiddenArr (paramsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) (m ((c.tc : Thread nD τ).loc main_arg0)) (m ((c.tc : Thread nD τ).loc main_arg1)) (m ((c.tc : Thread nD τ).loc main_arg2))
      ∧ r.2.mem ((c.tc : Thread nD τ).loc main_v67)
        = cellArr (paramsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
      ⟨(h c).1.trans ((val_main_v80_eq m c).trans (hidden_arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))),
        (h c).2.1.trans ((val_main_v67_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) (m ((c.tc : Thread nD τ).loc main_arg14))).trans
          (cell_arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))),
        (h c).2.2⟩)
    (Cert.ReferenceIdeal.Value.run (F := Ideal) m ρ)

end Cert.ReferenceIdeal.RowForm

end
-- ==== Proof.lean ====
import proofs.«105872_j31061203485011_2_alg».proof.Defs
import proofs.«105872_j31061203485011_2_alg».proof.Proof.Gen.Kernel
import proofs.«105872_j31061203485011_2_alg».proof.Proof.Gen.Kernel.Skeleton
import proofs.«105872_j31061203485011_2_alg».proof.Proof.Gen.Kernel.Launch
import proofs.«105872_j31061203485011_2_alg».proof.Proof.Gen.Kernel.Points
import proofs.«105872_j31061203485011_2_alg».proof.Proof.Gen.KernelIdeal
import proofs.«105872_j31061203485011_2_alg».proof.Proof.Gen.KernelIdeal.Skeleton
import proofs.«105872_j31061203485011_2_alg».proof.Proof.Gen.KernelIdeal.Launch
import proofs.«105872_j31061203485011_2_alg».proof.Proof.Gen.KernelIdeal.Points
import proofs.«105872_j31061203485011_2_alg».proof.Proof.Gen.ReferenceIdeal
import proofs.«105872_j31061203485011_2_alg».proof.Proof.Gen.ReferenceIdeal.Run
import proofs.«105872_j31061203485011_2_alg».proof.Proof.Gen.ReferenceIdeal.Read
import proofs.«105872_j31061203485011_2_alg».proof.Proof.Gen.Pre_finite_inputs
import proofs.«105872_j31061203485011_2_alg».proof.Proof.BitsLaunch
import proofs.«105872_j31061203485011_2_alg».proof.Proof.IdealArrays
import proofs.«105872_j31061203485011_2_alg».proof.Proof.RefRows
import Idealize.ShloMosaic.Adequacy
import Idealize.ShloMosaic.Init

/-!
# A five-gate recurrent cell with a correction along the old cell state: kernel against reference

Both programs take a batch of 16384 rows of data `d`, previous hidden state `h` and previous cell state `c` (1024
columns each) and, for each of five gates, a matrix `W` applied to `d`, a bias `b` and a matrix `U` applied to `h`.
With `σ` the logistic function and `pre = d · Wᵀ + b + h · Uᵀ` per gate, both return
`c' = σ preᵢ · tanh pre_c + σ pre_f · c` and `h' = σ pre_o · tanh (c' − σ pre_g · (⟨c', c⟩ / ⟨c, c⟩) · c)`,
the two inner products taken along each row.

The reference writes this with ten separate products, the logistic function spelled out and whole-array row sums.
The kernel first fuses the weights on the host (the five `Wᵀ` side by side, the five `Uᵀ` side by side, the biases
end to end) and then, for 128 rows at a time, forms one accumulator `d · Wfused + h · Ufused + bias`, cuts it into the
five pre-activations and finishes the cell on the tile. Read as exact extended-real arithmetic the two agree entry by
entry: a fused product's column is the corresponding gate's product, a sum of 1024 terms is the same sum wherever it
is taken, the bias may be added before or after the second product (addition is commutative and associative on the
extended reals, infinities included), and the logistic function is the same function however it is spelled. No step
uses that the inputs are finite.

The proof: each program's run (termination, no fault, the arguments unchanged); the reference's two results as the
row-by-row description of the cell; the kernel's two result arrays, assembled from the 128 blocks, as the same
description; and the five claims from these.
-/

noncomputable section

namespace Cert.Proof

open Idealize.ShloMosaic Idealize.ShloMosaic.TcCoe Idealize.SL.Sem Cert.CellSpec

/-- The kernel as printed runs to its end without a fault and leaves its arguments as they were. -/
theorem frame_bits : Cert.frame_Kernel := fun m ρ _ => Cert.Kernel.Launched.frame m ρ

/-- So does the kernel read over the extended reals. -/
theorem frame_ideal : Cert.frame_KernelIdeal := fun m ρ _ => Cert.KernelIdeal.Launched.frame m ρ

/-- So does the reference: its run also names its results, which are dropped here. -/
theorem frame_ref : Cert.frame_ReferenceIdeal := fun m ρ _ =>
  (θ_run Cert.ReferenceIdeal.defs _ _).mono (fun _ h c => (h c).2.2) (Cert.ReferenceIdeal.Value.run (F := Ideal) m ρ)

/-- Nothing of the kernel was rewritten to read it over the extended reals. -/
theorem preserves : Cert.preserves_Kernel_KernelIdeal := trivial

/-- From memories that agree on the eighteen arguments, the kernel's run ends with the new hidden state and the new
    cell state of the arguments in its two results, and the reference's run ends with its two results at the same two
    arrays: both are the row-by-row description of the cell. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ?_) (Cert.ReferenceIdeal.RowForm.run_rows m' ρ')
  obtain ⟨h0, h1, h2, h3, h4, h5, h6, h7, h8, h9, h10, h11, h12, h13, h14, h15, h16, h17⟩ := hagree c
  refine ⟨(h c).1.trans ?_, (h c).2.1.trans ?_, (h c).2.2⟩
  · rw [h0, h1, h2, h3, h4, h5, h6, h7, h8, h9, h10, h11, h12, h13, h14, h15, h16, h17]
    rfl
  · rw [h0, h1, h2, h3, h4, h5, h6, h7, h8, h9, h10, h11, h12, h13, h14, h15, h16, h17]
    rfl

theorem claim : Cert.Claim :=
  ⟨Cert.Kernel.Gen.facts, Cert.KernelIdeal.Gen.facts, Cert.ReferenceIdeal.Gen.facts, Cert.Pre_finite_inputs.Gen.facts,
    frame_bits, frame_ideal, frame_ref, preserves, algebraic⟩

end Cert.Proof

end
